-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x24 : Shape := ⟨2, ![100000, 24]⟩
abbrev S1600000 : Shape := ⟨1, ![1600000]⟩
abbrev S1600000x1 : Shape := ⟨2, ![1600000, 1]⟩
abbrev S100000x1 : Shape := ⟨2, ![100000, 1]⟩
abbrev S24x128 : Shape := ⟨2, ![24, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩

class Facts : Prop where
  bcast_S_S100000x24 : S_.BroadcastsInDim S100000x24 (![] : Fin 0 → Fin S100000x24.rank)
  reducesTo_S100000x24_S_d0_1 : S100000x24.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S100000x1 : S_.BroadcastsInDim S100000x1 (![] : Fin 0 → Fin S100000x1.rank)
  reducesTo_S100000x1_S_d0_1 : S100000x1.ReducesTo [0, 1] S_
  bcast_S_S24x128 : S_.BroadcastsInDim S24x128 (![] : Fin 0 → Fin S24x128.rank)
  reducesTo_S24x128_S_d0_1 : S24x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x12 : S_.BroadcastsInDim S128x12 (![] : Fin 0 → Fin S128x12.rank)
  reducesTo_S128x12_S_d0_1 : S128x12.ReducesTo [0, 1] S_
  bcast_S_S12 : S_.BroadcastsInDim S12 (![] : Fin 0 → Fin S12.rank)
  reducesTo_S12_S_d0 : S12.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x12 .f32) (main_arg15 : FVec F S12 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x12 .f32 := Host.absf main_arg14
  let main_cst_22 : FVec F S_ .f32 := constant S_ .f32 0x7F800000#32
  let main_v60 : FVec F S128x12 .f32 := broadcastInDim S128x12 ![] bcast_S_S128x12 main_cst_22
  let main_v61 : IVec S128x12 1 := cmpf .olt main_v59 main_v60
  let main_c_23 : IVec S_ 1 := constantI S_ 1 1#1
  let main_v62 : IVec S_ 1 := (fun x v => Host.reduce IntOp.andi x v reducesTo_S128x12_S_d0_1 h_S_) main_v61 main_c_23
  let main_v63 : IVec S_ 1 := andi main_v58 main_v62
  let main_v64 : FVec F S12 .f32 := Host.absf main_arg15
  let main_cst_24 : FVec F S_ .f32 := constant S_ .f32 0x7F800000#32
  let main_v65 : FVec F S12 .f32 := broadcastInDim S12 ![] bcast_S_S12 main_cst_24
  let main_v66 : IVec S12 1 := cmpf .olt main_v64 main_v65
  let main_c_25 : IVec S_ 1 := constantI S_ 1 1#1
  let main_v67 : IVec S_ 1 := (fun x v => Host.reduce IntOp.andi x v reducesTo_S12_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128x128 .f32) (main_arg13 : FVec F S128 .f32) (main_arg14 : FVec F S128x12 .f32) (main_arg15 : FVec F S12 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S24x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x12 .f32) (main_arg15 : FVec F S12 .f32) (main_v13 : IVec S_ 1) (main_v16 : IVec S1600000x1 1) : IVec S_ 1 :=
  let main_c_5 : IVec S_ 1 := constantI S_ 1 1#1
  let main_v17 : IVec S_ 1 := (fun x v => Host.reduce IntOp.andi x v reducesTo_S1600000x1_S_d0_1 h_S_) main_v16 main_c_5
  let main_v18 : IVec S_ 1 := andi main_v13 main_v17
  let main_v19 : FVec F S24x128 .f32 := Host.absf main_arg6
  let main_cst_6 : FVec F S_ .f32 := constant S_ .f32 0x7F800000#32
  let main_v20 : FVec F S24x128 .f32 := broadcastInDim S24x128 ![] bcast_S_S24x128 main_cst_6
  let main_v21 : IVec S24x128 1 := cmpf .olt main_v19 main_v20
  let main_c_7 : IVec S_ 1 := constantI S_ 1 1#1
  let main_v22 : IVec S_ 1 := (fun x v => Host.reduce IntOp.andi x v reducesTo_S24x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x24 .f32) (main_arg1 : IVec S1600000 32) (main_arg2 : IVec S1600000 32) (main_arg3 : FVec F S1600000x1 .f32) (main_arg4 : FVec F S100000x1 .f32) (main_arg5 : FVec F S1600000x1 .f32) (main_arg6 : FVec F S24x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x12 .f32) (main_arg15 : FVec F S12 .f32) : IVec S_ 1 :=
  let main_v0 : FVec F S100000x24 .f32 := Host.absf main_arg0
  let main_cst : FVec F S_ .f32 := constant S_ .f32 0x7F800000#32
  let main_v1 : FVec F S100000x24 .f32 := broadcastInDim S100000x24 ![] bcast_S_S100000x24 main_cst
  let main_v2 : IVec S100000x24 1 := cmpf .olt main_v0 main_v1
  let main_c : IVec S_ 1 := constantI S_ 1 1#1
  let main_v3 : IVec S_ 1 := (fun x v => Host.reduce IntOp.andi x v reducesTo_S100000x24_S_d0_1 h_S_) main_v2 main_c
  let main_v4 : FVec F S1600000x1 .f32 := Host.absf main_arg3
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S1600000x1 .f32 := Host.absf main_arg5
  let main_cst_4 : FVec F S_ .f32 := constant S_ .f32 0x7F800000#32
  let main_v15 : FVec F S1600000x1 .f32 := broadcastInDim S1600000x1 ![] bcast_S_S1600000x1 main_cst_4
  let main_v16 : IVec S1600000x1 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x24 : Shape := ⟨2, ![100000, 24]⟩
abbrev S1600000 : Shape := ⟨1, ![1600000]⟩
abbrev S1600000x1 : Shape := ⟨2, ![1600000, 1]⟩
abbrev S100000x1 : Shape := ⟨2, ![100000, 1]⟩
abbrev S24x128 : Shape := ⟨2, ![24, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩
abbrev S100000 : Shape := ⟨1, ![100000]⟩
abbrev S1x128 : Shape := ⟨2, ![1, 128]⟩
abbrev S100000x128 : Shape := ⟨2, ![100000, 128]⟩
abbrev S2000x24 : Shape := ⟨2, ![2000, 24]⟩
abbrev S2000x128 : Shape := ⟨2, ![2000, 128]⟩
abbrev S2000x1 : Shape := ⟨2, ![2000, 1]⟩
abbrev S1600000x128 : Shape := ⟨2, ![1600000, 128]⟩
abbrev S1x12 : Shape := ⟨2, ![1, 12]⟩
abbrev S100000x12 : Shape := ⟨2, ![100000, 12]⟩
abbrev S2000x12 : Shape := ⟨2, ![2000, 12]⟩

abbrev nBuf : Space → Nat
  | .hbm => 96
  | .vmem => 50
  | .smem => 0
  | _ => 0

abbrev bufTy : (tb : Table) → Fin (tcTables nBuf tb) → BufTy
  | .hbm, ⟨0, _⟩ => ⟨S100000x24, .f32⟩
  | .hbm, ⟨1, _⟩ => ⟨S1600000, .i32⟩
  | .hbm, ⟨2, _⟩ => ⟨S1600000, .i32⟩
  | .hbm, ⟨3, _⟩ => ⟨S1600000x1, .f32⟩
  | .hbm, ⟨4, _⟩ => ⟨S100000x1, .f32⟩
  | .hbm, ⟨5, _⟩ => ⟨S1600000x1, .f32⟩
  | .hbm, ⟨6, _⟩ => ⟨S24x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x12, .f32⟩
  | .hbm, ⟨15, _⟩ => ⟨S12, .f32⟩
  | .hbm, ⟨16, _⟩ => ⟨S_, .f32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S_, .f32⟩
  | .hbm, ⟨27, _⟩ => ⟨S1600000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S_, .f32⟩
  | .hbm, ⟨44, _⟩ => ⟨S1600000, .f32⟩
  | .hbm, ⟨45, _⟩ => ⟨S100000, .f32⟩
  | .hbm, ⟨46, _⟩ => ⟨S_, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S1x128, .f32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x128, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S100000x1, .f32⟩
  | .hbm, ⟨71, _⟩ => ⟨S1x128, .f32⟩
  | .hbm, ⟨72, _⟩ => ⟨S100000x128, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x1, .f32⟩
  | .hbm, ⟨92, _⟩ => ⟨S1x128, .f32⟩
  | .hbm, ⟨93, _⟩ => ⟨S100000x128, .f32⟩
  | .hbm, ⟨94, _⟩ => ⟨S1x12, .f32⟩
  | .hbm, ⟨95, _⟩ => ⟨S100000x12, .f32⟩
  | .local _ .vmem, ⟨0, _⟩ => ⟨S2000x24, .f32⟩
  | .local _ .vmem, ⟨1, _⟩ => ⟨S2000x24, .f32⟩
  | .local _ .vmem, ⟨2, _⟩ => ⟨S24x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x1, .f32⟩
  | .local _ .vmem, ⟨20, _⟩ => ⟨S2000x1, .f32⟩
  | .local _ .vmem, ⟨21, _⟩ => ⟨S128x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x1, .f32⟩
  | .local _ .vmem, ⟨28, _⟩ => ⟨S2000x1, .f32⟩
  | .local _ .vmem, ⟨29, _⟩ => ⟨S128x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S2000x128, .f32⟩
  | .local _ .vmem, ⟨38, _⟩ => ⟨S2000x1, .f32⟩
  | .local _ .vmem, ⟨39, _⟩ => ⟨S2000x1, .f32⟩
  | .local _ .vmem, ⟨40, _⟩ => ⟨S128x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S128x12, .f32⟩
  | .local _ .vmem, ⟨47, _⟩ => ⟨S1x12, .f32⟩
  | .local _ .vmem, ⟨48, _⟩ => ⟨S2000x12, .f32⟩
  | .local _ .vmem, ⟨49, _⟩ => ⟨S2000x12, .f32⟩
  | _, _ => ⟨S100000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_c_4 : Ref sig .tc := ⟨.hbm, 35, rfl⟩
abbrev main_v11 : Ref sig .tc := ⟨.hbm, 36, rfl⟩
abbrev main_v12 : Ref sig .tc := ⟨.hbm, 37, rfl⟩
abbrev main_c_5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_6 : Ref sig .tc := ⟨.hbm, 43, rfl⟩
abbrev main_v17 : Ref sig .tc := ⟨.hbm, 44, rfl⟩
abbrev main_v18 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23_0 : Ref sig .tc := ⟨.hbm, 53, rfl⟩
abbrev main_v23_1 : Ref sig .tc := ⟨.hbm, 54, rfl⟩
abbrev main_c_8 : Ref sig .tc := ⟨.hbm, 55, rfl⟩
abbrev main_v24 : Ref sig .tc := ⟨.hbm, 56, rfl⟩
abbrev main_v25 : Ref sig .tc := ⟨.hbm, 57, rfl⟩
abbrev main_c_9 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_10 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40_0 : Ref sig .tc := ⟨.hbm, 74, rfl⟩
abbrev main_v40_1 : Ref sig .tc := ⟨.hbm, 75, rfl⟩
abbrev main_c_11 : Ref sig .tc := ⟨.hbm, 76, rfl⟩
abbrev main_v41 : Ref sig .tc := ⟨.hbm, 77, rfl⟩
abbrev main_v42 : Ref sig .tc := ⟨.hbm, 78, rfl⟩
abbrev main_c_12 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_13 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem5_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x12 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x12 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x12 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S128_S1x128 : S128.ShapeCasts S1x128
  inb_S2000x24_S2000x24_0_0 : ∀ a, (![0, 0] : Fin 2 → Nat) a + S2000x24.size a ≤ S2000x24.size a
  h_S2000x24 : 0 < S2000x24.numel
  bitsLt_bf16_f32 : FTy.bits .bf16 < FTy.bits .f32
  inb_S24x128_S24x128_0_0 : ∀ a, (![0, 0] : Fin 2 → Nat) a + S24x128.size a ≤ S24x128.size a
  h_S24x128 : 0 < S24x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  shapeCasts_S100000_S100000x1 : S100000.ShapeCasts S100000x1
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S12_S1x12 : S12.ShapeCasts S1x12
  inb_S128x12_S128x12_0_0 : ∀ a, (![0, 0] : Fin 2 → Nat) a + S128x12.size a ≤ S128x12.size a
  h_S128x12 : 0 < S128x12.numel
  inb_S1x12_S1x12_0_0 : ∀ a, (![0, 0] : Fin 2 → Nat) a + S1x12.size a ≤ S1x12.size a
  h_S1x12 : 0 < S1x12.numel
  shapeCasts_S1x12_S1x12 : S1x12.ShapeCasts S1x12
  broadcasts_S1x12_S2000x12 : S1x12.Broadcasts S2000x12
  inb_S2000x12_S2000x12_0_0 : ∀ a, (![0, 0] : Fin 2 → Nat) a + S2000x12.size a ≤ S2000x12.size a
  h_S2000x12 : 0 < S2000x12.numel
  scatter_S100000_S1600000x1_S1600000_n_0_0_1_wf : ScatterDims.WF S100000 S1600000x1 S1600000 [] [0] [0] 1
  dot_S2000x24_S24x128_S2000x128_1_0_0_1_n_n_wf : DotDims.WF S2000x24 S24x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x12_S2000x12_1_0_0_1_n_n_wf : DotDims.WF S2000x128 S128x12 S2000x12 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x24.size a ≤ S100000x24.size a
  hwx0_0 : ∀ i : grid0.Coords, EltTy.bits .f32 = 32 ∨ (Rect.block (s := S100000x24) S2000x24.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S24x128.size a ≤ S24x128.size a
  hwx0_1 : ∀ i : grid0.Coords, EltTy.bits .f32 = 32 ∨ (Rect.block (s := S24x128) S24x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S100000x128.size a
  hwx2_1 : ∀ i : grid2.Coords, EltTy.bits .f32 = 32 ∨ (Rect.block (s := S100000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S100000x128.size a
  hwx2_5 : ∀ i : grid2.Coords, EltTy.bits .f32 = 32 ∨ (Rect.block (s := S100000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S100000x128.size a
  hwx3_4 : ∀ i : grid3.Coords, EltTy.bits .f32 = 32 ∨ (Rect.block (s := S100000x128) S2000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S100000x128.size a
  hwx4_1 : ∀ i : grid4.Coords, EltTy.bits .f32 = 32 ∨ (Rect.block (s := S100000x128) S2000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S100000x1.size a
  hwx4_2 : ∀ i : grid4.Coords, EltTy.bits .f32 = 32 ∨ (Rect.block (s := S100000x1) S2000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S100000x128.size a
  hwx4_5 : ∀ i : grid4.Coords, EltTy.bits .f32 = 32 ∨ (Rect.block (s := S100000x128) S2000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x12.size a ≤ S128x12.size a
  hwx5_1 : ∀ i : grid5.Coords, EltTy.bits .f32 = 32 ∨ (Rect.block (s := S128x12) S128x12.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x12.size a ≤ S1x12.size a
  hwx5_2 : ∀ i : grid5.Coords, EltTy.bits .f32 = 32 ∨ (Rect.block (s := S1x12) S1x12.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x12.size a ≤ S100000x12.size a
  hwx5_3 : ∀ i : grid5.Coords, EltTy.bits .f32 = 32 ∨ (Rect.block (s := S100000x12) S2000x12.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x24_S24x128_S2000x128_1_0_0_1_n_n : DotDims S2000x24 S24x128 S2000x128 where
  lhsContracting := [1]
  rhsContracting := [0]
  lhsNonContracting := [0]
  rhsNonContracting := [1]
  lhsBatch := []
  rhsBatch := []
  wf := dot_S2000x24_S24x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x12_S2000x12_1_0_0_1_n_n : DotDims S2000x128 S128x12 S2000x12 where
  lhsContracting := [1]
  rhsContracting := [0]
  lhsNonContracting := [0]
  rhsNonContracting := [1]
  lhsBatch := []
  rhsBatch := []
  wf := dot_S2000x128_S128x12_S2000x12_1_0_0_1_n_n_wf

abbrev win0_0 : Pipeline.Window sig grid0 :=
  Pipeline.Window.ofSpec (Memref.whole main_arg0) S2000x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S24x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23_1) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23_0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v38) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40_0) S2000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v40_1) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v52) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40_0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v53) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg12) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v55) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg14) S128x12.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x12.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S2000x12.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x24 : Shape := ⟨2, ![100000, 24]⟩
abbrev S1600000 : Shape := ⟨1, ![1600000]⟩
abbrev S1600000x1 : Shape := ⟨2, ![1600000, 1]⟩
abbrev S100000x1 : Shape := ⟨2, ![100000, 1]⟩
abbrev S24x128 : Shape := ⟨2, ![24, 128]⟩
abbrev S128 : Shape := ⟨1, ![128]⟩
abbrev S128x128 : Shape := ⟨2, ![128, 128]⟩
abbrev S128x12 : Shape := ⟨2, ![128, 12]⟩
abbrev S12 : Shape := ⟨1, ![12]⟩
abbrev S_ : Shape := ⟨0, ![]⟩
abbrev S100000 : Shape := ⟨1, ![100000]⟩
abbrev S100000x128 : Shape := ⟨2, ![100000, 128]⟩
abbrev S1x128 : Shape := ⟨2, ![1, 128]⟩
abbrev S1600000x128 : Shape := ⟨2, ![1600000, 128]⟩
abbrev S100000x12 : Shape := ⟨2, ![100000, 12]⟩
abbrev S1x12 : Shape := ⟨2, ![1, 12]⟩

abbrev nBuf : Space → Nat
  | .hbm => 130
  | .vmem => 0
  | .smem => 0
  | _ => 0

abbrev hbmTy0_0 (i : Nat) : BufTy := match i % 128 with
  | 0 => ⟨S100000x24, .f32⟩
  | 1 => ⟨S1600000, .i32⟩
  | 2 => ⟨S1600000, .i32⟩
  | 3 => ⟨S1600000x1, .f32⟩
  | 4 => ⟨S100000x1, .f32⟩
  | 5 => ⟨S1600000x1, .f32⟩
  | 6 => ⟨S24x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x12, .f32⟩
  | 15 => ⟨S12, .f32⟩
  | 16 => ⟨S_, .f32⟩
  | 17 => ⟨S100000, .f32⟩
  | 18 => ⟨S_, .i32⟩
  | 19 => ⟨S1600000, .i32⟩
  | 20 => ⟨S1600000, .i1⟩
  | 21 => ⟨S_, .i32⟩
  | 22 => ⟨S1600000, .i32⟩
  | 23 => ⟨S1600000, .i32⟩
  | 24 => ⟨S1600000, .i32⟩
  | 25 => ⟨S1600000x1, .i32⟩
  | 26 => ⟨S_, .f32⟩
  | 27 => ⟨S1600000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S_, .f32⟩
  | 44 => ⟨S1600000, .f32⟩
  | 45 => ⟨S100000, .f32⟩
  | 46 => ⟨S_, .f32⟩
  | 47 => ⟨S_, .f32⟩
  | 48 => ⟨S100000, .f32⟩
  | 49 => ⟨S100000, .f32⟩
  | 50 => ⟨S100000x128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S100000, .f32⟩
  | 57 => ⟨S100000, .f32⟩
  | 58 => ⟨S100000x1, .f32⟩
  | 59 => ⟨S100000x128, .f32⟩
  | 60 => ⟨S100000x128, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x128, .f32⟩
  | 70 => ⟨S1600000x128, .f32⟩
  | 71 => ⟨S1600000x128, .f32⟩
  | 72 => ⟨S_, .f32⟩
  | 73 => ⟨S100000x128, .f32⟩
  | 74 => ⟨S1600000x1, .i32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000, .f32⟩
  | 82 => ⟨S100000, .f32⟩
  | 83 => ⟨S100000x1, .f32⟩
  | 84 => ⟨S100000x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S100000x128, .f32⟩
  | 91 => ⟨S_, .f32⟩
  | 92 => ⟨S100000, .f32⟩
  | 93 => ⟨S100000, .f32⟩
  | 94 => ⟨S100000x1, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S1600000x128, .f32⟩
  | 107 => ⟨S1600000x128, .f32⟩
  | 108 => ⟨S_, .f32⟩
  | 109 => ⟨S100000x128, .f32⟩
  | 110 => ⟨S1600000x1, .i32⟩
  | 111 => ⟨S100000x128, .f32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S_, .f32⟩
  | 124 => ⟨S100000x128, .f32⟩
  | 125 => ⟨S100000x128, .f32⟩
  | 126 => ⟨S100000x12, .f32⟩
  | 127 => ⟨S1x12, .f32⟩
  | _ => ⟨S100000x24, .f32⟩

abbrev hbmTy0_1 (i : Nat) : BufTy := match i % 128 with
  | 0 => ⟨S100000x12, .f32⟩
  | 1 => ⟨S100000x12, .f32⟩
  | _ => ⟨S100000x24, .f32⟩

abbrev hbmTy (i : Nat) : BufTy := match i / 128 with
  | 0 => hbmTy0_0 i
  | 1 => hbmTy0_1 i
  | _ => ⟨S100000x24, .f32⟩

abbrev bufTy : (tb : Table) → Fin (tcTables nBuf tb) → BufTy
  | .hbm, ⟨i, _⟩ => hbmTy i
  | _, _ => ⟨S100000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_c_0 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v9 : Ref sig .tc := ⟨.hbm, 32, rfl⟩
abbrev main_cst_3 : Ref sig .tc := ⟨.hbm, 33, rfl⟩
abbrev main_v10 : Ref sig .tc := ⟨.hbm, 34, rfl⟩
abbrev main_c_4 : Ref sig .tc := ⟨.hbm, 35, rfl⟩
abbrev main_v11 : Ref sig .tc := ⟨.hbm, 36, rfl⟩
abbrev main_v12 : Ref sig .tc := ⟨.hbm, 37, rfl⟩
abbrev main_c_5 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_6 : Ref sig .tc := ⟨.hbm, 43, rfl⟩
abbrev main_v17 : Ref sig .tc := ⟨.hbm, 44, rfl⟩
abbrev main_v18 : Ref sig .tc := ⟨.hbm, 45, rfl⟩
abbrev main_cst_7 : Ref sig .tc := ⟨.hbm, 46, rfl⟩
abbrev main_call1_v0 : Ref sig .tc := ⟨.hbm, 47, rfl⟩
abbrev main_call1_v1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_8 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_c_9 : Ref sig .tc := ⟨.hbm, 61, rfl⟩
abbrev main_v30 : Ref sig .tc := ⟨.hbm, 62, rfl⟩
abbrev main_v31 : Ref sig .tc := ⟨.hbm, 63, rfl⟩
abbrev main_c_10 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_11 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call2_cst : Ref sig .tc := ⟨.hbm, 87, rfl⟩
abbrev main_call2_v0 : Ref sig .tc := ⟨.hbm, 88, rfl⟩
abbrev main_v52 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_c_14 : Ref sig .tc := ⟨.hbm, 97, rfl⟩
abbrev main_v59 : Ref sig .tc := ⟨.hbm, 98, rfl⟩
abbrev main_v60 : Ref sig .tc := ⟨.hbm, 99, rfl⟩
abbrev main_c_15 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_16 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_cst_17 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_call3_cst : Ref sig .tc := ⟨.hbm, 123, rfl⟩
abbrev main_call3_v0 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S12_S1x12_1 : S12.BroadcastsInDim S1x12 (![1] : Fin 1 → Fin S1x12.rank)
  bcast_S1x12_S100000x12_0_1 : S1x12.BroadcastsInDim S100000x12 (![0, 1] : Fin 2 → Fin S100000x12.rank)
  scatter_S100000_S1600000x1_S1600000_n_0_0_1_wf : ScatterDims.WF S100000 S1600000x1 S1600000 [] [0] [0] 1
  dot_S100000x24_S24x128_S100000x128_1_0_0_1_n_n_wf : DotDims.WF S100000x24 S24x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x12_S100000x12_1_0_0_1_n_n_wf : DotDims.WF S100000x128 S128x12 S100000x12 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x24_S24x128_S100000x128_1_0_0_1_n_n : DotDims S100000x24 S24x128 S100000x128 where
  lhsContracting := [1]
  rhsContracting := [0]
  lhsNonContracting := [0]
  rhsNonContracting := [1]
  lhsBatch := []
  rhsBatch := []
  wf := dot_S100000x24_S24x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x12_S100000x12_1_0_0_1_n_n : DotDims S100000x128 S128x12 S100000x12 where
  lhsContracting := [1]
  rhsContracting := [0]
  lhsNonContracting := [0]
  rhsNonContracting := [1]
  lhsBatch := []
  rhsBatch := []
  wf := dot_S100000x128_S128x12_S100000x12_1_0_0_1_n_n_wf

class Facts : Prop extends Facts₀ where

variable [Facts]
-- ==== Proof.KRun.lean ====
/-
  The run of the whole program with its result NAMED: every weakly fair execution ends, nothing faulting, with the
  result array at the contents the last dense stage leaves (`W16` at the result's buffer: the fold of the host
  stretches and the six pipelined calls from the launch memory) and every argument as launched.
-/
import proofs.«171632_j15960098472701_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v57) = W16 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v57 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c)⟩)

end Cert.KernelIdeal.KRun

end
-- ==== Proof.Spec.lean ====
/-
  The six dense stages of the two-layer graph convolution, each as ONE function of whole arrays, index by index, on the
  extended reals.  A row of the node table is an index `r : Fin 100000`; a feature is a column.
  * `lin24`, `lin12`: an affine map of every row, `x · w + b` (the bias a single row, repeated down the table).
  * `selfT`: the self transform of every row, `h · w`.
  * `scaled`: every row of `h` divided by the square root of that node's degree, `h[r, ·] · d[r]^(-1/2)`.
  * `post`: `max (hs + (agg · w + b) · d^(-1/2)) 0`, row by row.
-/
import proofs.«171632_j15960098472701_1_alg».proof.KernelIdeal
import Idealize.ShloMosaic.PureOps.Ideal
import Idealize.ShloMosaic.Lib.ValueIdx

noncomputable section

namespace Cert.Spec

open Idealize.ShloMosaic Idealize.ShloMosaic.ValueIdx Cert.KernelIdeal

/-- The row coordinate of a two-axis index, at its literal extent. -/
abbrev rw2 {n0 n1 : Nat} (j : (⟨2, ![n0, n1]⟩ : Shape).Idx) : Fin n0 := ⟨(j 0).val, idx2_lt0 j⟩
/-- The column coordinate of a two-axis index, at its literal extent. -/
abbrev cl2 {n0 n1 : Nat} (j : (⟨2, ![n0, n1]⟩ : Shape).Idx) : Fin n1 := ⟨(j 1).val, idx2_lt1 j⟩

theorem rw2_ix2 {n0 n1 : Nat} (p : Fin n0) (q : Fin n1) : rw2 (ix2 p q) = p := rfl
theorem cl2_ix2 {n0 n1 : Nat} (p : Fin n0) (q : Fin n1) : cl2 (ix2 p q) = q := rfl

/-- `x · w + b`: 24 input features to 128. -/
def lin24 (x : FVec Ideal S100000x24 .f32) (w : FVec Ideal S24x128 .f32) (b : FVec Ideal S1x128 .f32) :
    FVec Ideal S100000x128 .f32 :=
  fun i => (∑ k : Fin 24, x (ix2 (rw2 i) k) * w (ix2 k (cl2 i))) + b (ix2 (0 : Fin 1) (cl2 i))

/-- `x · w + b`: 128 features to the 12 outputs. -/
def lin12 (x : FVec Ideal S100000x128 .f32) (w : FVec Ideal S128x12 .f32) (b : FVec Ideal S1x12 .f32) :
    FVec Ideal S100000x12 .f32 :=
  fun i => (∑ k : Fin 128, x (ix2 (rw2 i) k) * w (ix2 k (cl2 i))) + b (ix2 (0 : Fin 1) (cl2 i))

/-- `h · w`: the self transform. -/
def selfT (h : FVec Ideal S100000x128 .f32) (w : FVec Ideal S128x128 .f32) : FVec Ideal S100000x128 .f32 :=
  fun i => ∑ k : Fin 128, h (ix2 (rw2 i) k) * w (ix2 k (cl2 i))

/-- Row `r` of `h` times `d[r]^(-1/2)`. -/
def scaled (h : FVec Ideal S100000x128 .f32) (d : FVec Ideal S100000x1 .f32) : FVec Ideal S100000x128 .f32 :=
  fun i => h i * Ideal.rsqrt (d (ix2 (rw2 i) (0 : Fin 1)))

/-- `max (hs + (agg · w + b) · d^(-1/2)) 0`. -/
def post (agg hs : FVec Ideal S100000x128 .f32) (d : FVec Ideal S100000x1 .f32) (w : FVec Ideal S128x128 .f32)
    (b : FVec Ideal S1x128 .f32) : FVec Ideal S100000x128 .f32 :=
  fun i => max (hs i + ((∑ k : Fin 128, agg (ix2 (rw2 i) k) * w (ix2 k (cl2 i))) + b (ix2 (0 : Fin 1) (cl2 i)))
      * Ideal.rsqrt (d (ix2 (rw2 i) (0 : Fin 1)))) (Ideal.ofBits .f32 0x00000000#32)

end Cert.Spec

end
-- ==== Proof.Chain.lean ====
/-
  The whole network as ONE function of its argument arrays.  The irregular part of a layer is kept as the host
  operations themselves, opaque: a node's degree is the number of edges that name it, at least one
  (`degree`: a scatter-add of ones over the edge list, then `max 1`); a layer's aggregate at a node is the sum over the
  edges INTO it of the source node's scaled feature row times the edge weight (`aggregate`: gather, multiply,
  scatter-add).  The dense stages are `Spec`'s functions.  A layer:
    `post (aggregate (scaled h d_out)) (selfT h W_self) d_in W b`
  and the network: two layers between the 24→128 and the 128→12 affine maps.
-/
import proofs.«171632_j15960098472701_1_alg».proof.Proof.Spec
import proofs.«171632_j15960098472701_1_alg».proof.Proof.Gen.KernelIdeal

noncomputable section

namespace Cert.Spec

open Idealize.ShloMosaic Idealize.ShloMosaic.ValueIdx Cert.KernelIdeal Cert.KernelIdeal.Facts₀

/-- An edge end point as array indexing reads it: a negative index counts from the end of the node table. -/
def wrapped (s : (⟨S1600000, .i32⟩ : BufTy).Contents (Elt Ideal)) : (⟨S1600000x1, .i32⟩ : BufTy).Contents (Elt Ideal) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The number of edges naming each node (ones scatter-added over the edge list), at least one. -/
def degree (s : (⟨S1600000, .i32⟩ : BufTy).Contents (Elt Ideal)) : (⟨S100000, .f32⟩ : BufTy).Contents (Elt Ideal) :=
  maximumf (broadcastInDim S100000 ![] bcast_S_S100000 (id (constant (F := Ideal) S_ .f32 0x3F800000#32)))
    (Host.scatterAdd (F := Ideal) scatter_S100000_S1600000x1_S1600000_n_0_0_1
      (broadcastInDim S100000 ![] bcast_S_S100000 (constant (F := Ideal) S_ .f32 0x00000000#32))
      (wrapped s)
      (broadcastInDim S1600000 ![] bcast_S_S1600000 (constant (F := Ideal) S_ .f32 0x3F800000#32)))

/-- A vector of per-node numbers as a one-column table. -/
def column (d : (⟨S100000, .f32⟩ : BufTy).Contents (Elt Ideal)) : (⟨S100000x1, .f32⟩ : BufTy).Contents (Elt Ideal) :=
  shapeCast S100000x1 d shapeCasts_S100000_S100000x1

/-- A bias vector as a one-row table. -/
def row128 (b : (⟨S128, .f32⟩ : BufTy).Contents (Elt Ideal)) : (⟨S1x128, .f32⟩ : BufTy).Contents (Elt Ideal) :=
  shapeCast S1x128 b shapeCasts_S128_S1x128

/-- The output bias as a one-row table. -/
def row12 (b : (⟨S12, .f32⟩ : BufTy).Contents (Elt Ideal)) : (⟨S1x12, .f32⟩ : BufTy).Contents (Elt Ideal) :=
  shapeCast S1x12 b shapeCasts_S12_S1x12

/-- At each node the sum, over the edges into it, of the source node's feature row times the edge weight. -/
def aggregate (feat : (⟨S100000x128, .f32⟩ : BufTy).Contents (Elt Ideal))
    (src dst : (⟨S1600000, .i32⟩ : BufTy).Contents (Elt Ideal)) (ew : (⟨S1600000x1, .f32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (Host.gather gather_S100000x128_S1600000x1_S1600000x128_1_0_n_n_0_1_1128 feat (wrapped src))
      (broadcastInDim S1600000x128 ![0, 1] bcast_S1600000x1_S1600000x128_0_1 ew))

/-- One graph-convolution layer. -/
def layer (h : (⟨S100000x128, .f32⟩ : BufTy).Contents (Elt Ideal))
    (src dst : (⟨S1600000, .i32⟩ : BufTy).Contents (Elt Ideal)) (ew : (⟨S1600000x1, .f32⟩ : BufTy).Contents (Elt Ideal))
    (wSelf w : (⟨S128x128, .f32⟩ : BufTy).Contents (Elt Ideal)) (b : (⟨S128, .f32⟩ : BufTy).Contents (Elt Ideal)) :
    (⟨S100000x128, .f32⟩ : BufTy).Contents (Elt Ideal) :=
  post (aggregate (scaled h (column (degree src))) src dst ew) (selfT h wSelf) (column (degree dst)) w (row128 b)

/-- The network. -/
def network (a0 : (⟨S100000x24, .f32⟩ : BufTy).Contents (Elt Ideal))
    (src dst : (⟨S1600000, .i32⟩ : BufTy).Contents (Elt Ideal)) (ew : (⟨S1600000x1, .f32⟩ : BufTy).Contents (Elt Ideal))
    (wEmb : (⟨S24x128, .f32⟩ : BufTy).Contents (Elt Ideal)) (bEmb : (⟨S128, .f32⟩ : BufTy).Contents (Elt Ideal))
    (wSelf1 w1 : (⟨S128x128, .f32⟩ : BufTy).Contents (Elt Ideal)) (b1 : (⟨S128, .f32⟩ : BufTy).Contents (Elt Ideal))
    (wSelf2 w2 : (⟨S128x128, .f32⟩ : BufTy).Contents (Elt Ideal)) (b2 : (⟨S128, .f32⟩ : BufTy).Contents (Elt Ideal))
    (wFc : (⟨S128x12, .f32⟩ : BufTy).Contents (Elt Ideal)) (bFc : (⟨S12, .f32⟩ : BufTy).Contents (Elt Ideal)) :
    (⟨S100000x12, .f32⟩ : BufTy).Contents (Elt Ideal) :=
  lin12 (layer (layer (lin24 a0 wEmb (row128 bEmb)) src dst ew wSelf1 w1 b1) src dst ew wSelf2 w2 b2) wFc (row12 bFc)

end Cert.Spec

end
-- ==== Proof.Region0.lean ====
/-
  The first dense stage, `h = inputs · W_emb + b_emb`, as the pipelined call computes it: the node table is cut into
  50 blocks of 2000 rows, and block `t` of the result is the product of block `t` of the input rows with the whole
  weight matrix, plus the bias row.  Row `r` of the table lies in block `r / 2000` at offset `r % 2000`, so the
  blocks written back tile the table, and the array the call leaves is `Spec.lin24` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x128.Idx) (r : dot_S2000x24_S24x128_S2000x128_1_0_0_1_n_n.contr.Idx) : (dot_S2000x24_S24x128_S2000x128_1_0_0_1_n_n.lhsIdx i r 0).val = (i 0).val := by
  unfold DotDims.lhsIdx
  rw [dif_neg (show ¬(0 : Fin S2000x24.rank) ∈ dot_S2000x24_S24x128_S2000x128_1_0_0_1_n_n.lhsBatch by decide), dif_pos (show (0 : Fin S2000x24.rank) ∈ dot_S2000x24_S24x128_S2000x128_1_0_0_1_n_n.lhsNonContracting by decide)]
  rfl
theorem rhs_col (i : S2000x128.Idx) (r : dot_S2000x24_S24x128_S2000x128_1_0_0_1_n_n.contr.Idx) : (dot_S2000x24_S24x128_S2000x128_1_0_0_1_n_n.rhsIdx i r 1).val = (i 1).val := by
  unfold DotDims.rhsIdx
  rw [dif_neg (show ¬(1 : Fin S24x128.rank) ∈ dot_S2000x24_S24x128_S2000x128_1_0_0_1_n_n.rhsBatch by decide), dif_pos (show (1 : Fin S24x128.rank) ∈ dot_S2000x24_S24x128_S2000x128_1_0_0_1_n_n.rhsNonContracting by decide)]
  rfl

/-- The block product at an entry: the sum over the 24 input features. -/
theorem dot_apply (x : FVec Ideal S2000x24 .bf16) (w : FVec Ideal S24x128 .bf16) (p : Fin 2000) (q : Fin 128) :
    matmul dot_S2000x24_S24x128_S2000x128_1_0_0_1_n_n none x w (constant S2000x128 .f32 0x00000000#32) (ix2 p q)
      = ∑ k : Fin 24, x (ix2 p k) * w (ix2 k q) := by
  refine (Ideal.matmul_constant_zero_apply dot_S2000x24_S24x128_S2000x128_1_0_0_1_n_n none x w (ix2 p q)).trans ?_
  rw [← Equiv.sum_comp (ValueIdx.contrEquiv1 dot_S2000x24_S24x128_S2000x128_1_0_0_1_n_n 24 rfl rfl).symm]
  refine Finset.sum_congr rfl fun k _ => ?_
  have hk := ValueIdx.contrEquiv1_symm_val dot_S2000x24_S24x128_S2000x128_1_0_0_1_n_n 24 rfl rfl k
  have el : dot_S2000x24_S24x128_S2000x128_1_0_0_1_n_n.lhsIdx (ix2 p q) ((ValueIdx.contrEquiv1 dot_S2000x24_S24x128_S2000x128_1_0_0_1_n_n 24 rfl rfl).symm k) = ix2 p k := funext fun a => Fin.ext (by
    match a with
    | ⟨0, _⟩ => exact lhs_row _ _
    | ⟨1, _⟩ => exact (dot_S2000x24_S24x128_S2000x128_1_0_0_1_n_n.lhsIdx_val_of_single rfl (ix2 p q) _).trans hk)
  have er : dot_S2000x24_S24x128_S2000x128_1_0_0_1_n_n.rhsIdx (ix2 p q) ((ValueIdx.contrEquiv1 dot_S2000x24_S24x128_S2000x128_1_0_0_1_n_n 24 rfl rfl).symm k) = ix2 k q := funext fun a => Fin.ext (by
    match a with
    | ⟨0, _⟩ => exact (dot_S2000x24_S24x128_S2000x128_1_0_0_1_n_n.rhsIdx_val_of_single rfl (ix2 p q) _).trans hk
    | ⟨1, _⟩ => exact rhs_col _ _)
  rw [el, er]

/-- What the body stores, at row `p` and column `q` of the block. -/
theorem pay_apply (x0 : FVec Ideal S2000x24 .f32) (x1 : FVec Ideal S24x128 .f32) (x2 : FVec Ideal S1x128 .f32)
    (p : Fin 2000) (q : Fin 128) :
    k0_pay1 (F := Ideal) x0 x1 x2 (ix2 p q) = (∑ k : Fin 24, x0 (ix2 p k) * x1 (ix2 k q)) + x2 (ix2 (0 : Fin 1) q) := by
  unfold k0_pay1
  refine (addf_apply _ _ (ix2 p q)).trans ?_
  refine congrArg₂ (· + ·) ?_ ?_
  · exact dot_apply _ _ p q
  · refine (broadcastTo_1b_ab_apply _ broadcasts_S1x128_S2000x128 p q).trans ?_
    rw [shapeCast_self]

/-- The printed index maps over the grid: the input rows and the output move block by block with the grid point; the
    weight matrix and the bias row are taken whole at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem t_lt (t : Fin cfg0.N) : t.val < 50 := N_0 ▸ t.isLt

/-- Block `t` of the input rows: row `p` of the block is row `2000 t + p` of the table. -/
theorem rows_read (c : Dev nD) (t : Fin cfg0.N) (p : Fin 2000) (k : Fin 24) :
    iblk0 V c 0 t (ix2 p k)
      = V c (Pipeline.arrRef spec0 0) (ix2 (⟨t.val * 2000 + p.val, by have := t_lt t; omega⟩ : Fin 100000) k) := by
  obtain ⟨e0, e1, -⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 24 + 1 * k.val = k.val; rw [e1]; omega

/-- The weight matrix is taken whole at every point. -/
theorem weights_read (c : Dev nD) (t : Fin cfg0.N) (y : S24x128.Idx) :
    iblk0 V c 1 t y = V c (Pipeline.arrRef spec0 1) y := by
  obtain ⟨-, -, e2, e3, -⟩ := idx_facts t
  show V c (Pipeline.arrRef spec0 1) (((cfg0.win 1).blk t).view.emb y) = _
  refine congrArg (V c (Pipeline.arrRef spec0 1)) (funext fun a => Fin.ext ?_)
  match a with
  | ⟨0, _⟩ => show win0_1.index t (0 : Fin 2) * 24 + 1 * (y 0).val = (y 0).val; rw [e2]; omega
  | ⟨1, _⟩ => show win0_1.index t (1 : Fin 2) * 128 + 1 * (y 1).val = (y 1).val; rw [e3]; omega

/-- The bias row is taken whole at every point. -/
theorem bias_read (c : Dev nD) (t : Fin cfg0.N) (y : S1x128.Idx) :
    iblk0 V c 2 t y = V c (Pipeline.arrRef spec0 2) y := by
  obtain ⟨-, -, -, -, e4, e5, -⟩ := idx_facts t
  show V c (Pipeline.arrRef spec0 2) (((cfg0.win 2).blk t).view.emb y) = _
  refine congrArg (V c (Pipeline.arrRef spec0 2)) (funext fun a => Fin.ext ?_)
  match a with
  | ⟨0, _⟩ => show win0_2.index t (0 : Fin 2) * 1 + 1 * (y 0).val = (y 0).val; rw [e4]; omega
  | ⟨1, _⟩ => show win0_2.index t (1 : Fin 2) * 128 + 1 * (y 1).val = (y 1).val; rw [e5]; omega

/-- At a point: the body's stored value at row `p`, column `q` of block `tt` is `lin24` at row `2000 tt + p`, column `q`,
    whenever the loaded blocks are the rows `2000 tt …` of the table, the whole weights and the whole bias. -/
theorem point_eq (a0 : FVec Ideal S100000x24 .f32) (a1 : FVec Ideal S24x128 .f32) (a2 : FVec Ideal S1x128 .f32)
    (x0 : FVec Ideal S2000x24 .f32) (x1 : FVec Ideal S24x128 .f32) (x2 : FVec Ideal S1x128 .f32)
    (tt : Nat) (htt : tt < 50)
    (h0 : ∀ (p : Fin 2000) (k : Fin 24), x0 (ix2 p k) = a0 (ix2 (⟨tt * 2000 + p.val, by omega⟩ : Fin 100000) k))
    (h1 : ∀ y, x1 y = a1 y) (h2 : ∀ y, x2 y = a2 y)
    (p : Fin 2000) (q : Fin 128) (i : S100000x128.Idx) (hi0 : (i 0).val = tt * 2000 + p.val) (hi1 : (i 1).val = q.val) :
    k0_pay1 (F := Ideal) x0 x1 x2 (ix2 p q) = lin24 a0 a1 a2 i := by
  rw [pay_apply]
  have er : rw2 i = (⟨tt * 2000 + p.val, by omega⟩ : Fin 100000) := Fin.ext hi0
  have ec : cl2 i = q := Fin.ext hi1
  unfold lin24
  rw [er, ec, h2]
  refine congrArg (· + a2 (ix2 (0 : Fin 1) q)) (Finset.sum_congr rfl fun k _ => ?_)
  rw [h0, h1]

/-- What point `t` writes back is block `t` of `lin24` of the arrays as the call finds them. -/
theorem flushed_eq (c : Dev nD) (t : Fin cfg0.N) :
    (dat0 V c).flushed 3 t = ((cfg0.win 3).blk t).view.read (Elt Ideal)
      (lin24 (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz]
  simp only [View.ld_unit_zero (S := S2000x24) hz, View.ld_unit_zero (S := S24x128) hz, View.ld_unit_zero (S := S1x128) hz]
  obtain ⟨-, -, -, -, -, -, e6, e7⟩ := idx_facts t
  funext j
  obtain ⟨p, q, rfl⟩ : ∃ (p : Fin 2000) (q : Fin 128), j = ix2 p q := ⟨j 0, j 1, eq_ix2 j⟩
  refine point_eq _ _ _ _ _ _ t.val (t_lt t) (rows_read V c t) (weights_read V c t) (bias_read V c t) p q _ ?_ ?_
  · show win0_3.index t (0 : Fin 2) * 2000 + 1 * p.val = t.val * 2000 + p.val; rw [e6]; omega
  · show win0_3.index t (1 : Fin 2) * 128 + 1 * q.val = q.val; rw [e7]; omega

/-- An index of the result table is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v21).slice (win0_3.rect t)).set ↔ _
  rw [View.set_slice_whole, Rect.mem_set_unit]
  exact Iff.rfl

/-- Row `r` is written back by point `r / 2000`: the blocks tile the table. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 2000 < cfg0.N := by rw [show cfg0.N = 50 from N_0]; omega
  obtain ⟨-, -, -, -, -, -, e6, e7⟩ := idx_facts ⟨(i 0).val / 2000, hN⟩
  refine ⟨⟨(i 0).val / 2000, hN⟩, flush0_3 _, ?_⟩
  rw [mem_blk]
  intro a
  match a with
  | ⟨0, _⟩ =>
    show win0_3.index ⟨(i 0).val / 2000, hN⟩ (0 : Fin 2) * 2000 ≤ (i 0).val ∧ (i 0).val < win0_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win0_3.index ⟨(i 0).val / 2000, hN⟩ (1 : Fin 2) * 128 ≤ (i 1).val ∧ (i 1).val < win0_3.index ⟨(i 0).val / 2000, hN⟩ (1 : Fin 2) * 128 + 128
    rw [e7]; omega

/-- THE ARRAY the first dense stage leaves: `lin24` of the arrays it was given. -/
theorem final (c : Dev nD) :
    (dat0 V c).arrAt 3 cfg0.N
      = lin24 (V c (Pipeline.arrRef spec0 0)) (V c (Pipeline.arrRef spec0 1)) (V c (Pipeline.arrRef spec0 2)) :=
  (dat0 V c).arrAt_eq_of_cover 3 _ (fun t _ => flushed_eq V c t) (cover)

end Cert.KernelIdeal.Region0

end
-- ==== Proof.Region1.lean ====
/-
  The first pre-aggregation stage, as the pipelined call computes it.  The node table `h` is cut into 50 blocks of
  2000 rows, the degree column into 50 blocks of 2000 entries, and the weight matrix is taken whole.  Block `t` of the
  first result is the product of block `t` of `h` with the weights; block `t` of the second is block `t` of `h` with
  every row multiplied by the inverse square root of that row's degree (the column of inverse square roots repeated
  along the row).  Row `r` of the table lies in block `r / 2000` at offset `r % 2000`, so the blocks written back tile
  each table, and the two arrays the call leaves are `Spec.selfT` and `Spec.scaled` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs_col (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at an entry: the sum over the 128 features. -/
theorem dot_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact rhs_col _ _)
  rw [el, er]

/-- One column repeated along every row: entry `(p, c)` of the result is entry `(p, 0)` of the column. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores in the first result, at row `p` and column `q` of the block. -/
theorem pay2_apply (x0 : FVec Ideal S2000x128 .f32) (x2 : FVec Ideal S128x128 .f32) (p : Fin 2000) (q : Fin 128) :
    k1_pay2 (F := Ideal) x0 x2 (ix2 p q) = ∑ k : Fin 128, x0 (ix2 p k) * x2 (ix2 k q) := by
  unfold k1_pay2 k1_pay1
  rw [shapeCast_self]
  exact dot_apply _ _ p q

/-- What the body stores in the second result, at row `p` and column `q` of the block. -/
theorem pay3_apply (x0 : FVec Ideal S2000x128 .f32) (x1 : FVec Ideal S2000x1 .f32) (p : Fin 2000) (q : Fin 128) :
    k1_pay3 (F := Ideal) x0 x1 (ix2 p q) = x0 (ix2 p q) * Ideal.rsqrt (x1 (ix2 p (0 : Fin 1))) := by
  unfold k1_pay3 k1_pay1
  refine (mulf_apply _ _ (ix2 p q)).trans ?_
  refine congrArg₂ (· * ·) ?_ ?_
  · rw [shapeCast_self]
  · refine (bcast_col _ _ p q).trans ?_
    show Ideal.rsqrt (shapeCast S2000x1 x1 _ (ix2 p (0 : Fin 1))) = _
    rw [shapeCast_self]

/-- The printed index maps over the grid: the rows of `h`, the degree column and both results move block by block
    with the grid point; the weight matrix is taken whole at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem t_lt (t : Fin cfg1.N) : t.val < 50 := N_1 ▸ t.isLt

/-- Block `t` of the rows of `h`: row `p` of the block is row `2000 t + p` of the table. -/
theorem rows_read (c : Dev nD) (t : Fin cfg1.N) (p : Fin 2000) (k : Fin 128) :
    iblk1 V c 0 t (ix2 p k)
      = V c (Pipeline.arrRef spec1 0) (ix2 (⟨t.val * 2000 + p.val, by have := t_lt t; omega⟩ : Fin 100000) k) := by
  obtain ⟨e0, e1, -⟩ := idx_facts t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 128 + 1 * k.val = k.val; rw [e1]; omega

/-- Block `t` of the degree column: entry `p` of the block is entry `2000 t + p` of the column. -/
theorem deg_read (c : Dev nD) (t : Fin cfg1.N) (p : Fin 2000) :
    iblk1 V c 1 t (ix2 p (0 : Fin 1))
      = V c (Pipeline.arrRef spec1 1) (ix2 (⟨t.val * 2000 + p.val, by have := t_lt t; omega⟩ : Fin 100000) (0 : Fin 1)) := by
  obtain ⟨-, -, e2, e3, -⟩ := idx_facts t
  show V c (Pipeline.arrRef spec1 1) (((cfg1.win 1).blk t).view.emb (ix2 p (0 : Fin 1))) = _
  refine congrArg (V c (Pipeline.arrRef spec1 1)) (funext fun a => Fin.ext ?_)
  match a with
  | ⟨0, _⟩ => show win1_1.index t (0 : Fin 2) * 2000 + 1 * p.val = t.val * 2000 + p.val; rw [e2]; omega
  | ⟨1, _⟩ => show win1_1.index t (1 : Fin 2) * 1 + 1 * 0 = 0; rw [e3]

/-- The weight matrix is taken whole at every point. -/
theorem weights_read (c : Dev nD) (t : Fin cfg1.N) (y : S128x128.Idx) :
    iblk1 V c 2 t y = V c (Pipeline.arrRef spec1 2) y := by
  obtain ⟨-, -, -, -, e4, e5, -⟩ := idx_facts t
  show V c (Pipeline.arrRef spec1 2) (((cfg1.win 2).blk t).view.emb y) = _
  refine congrArg (V c (Pipeline.arrRef spec1 2)) (funext fun a => Fin.ext ?_)
  match a with
  | ⟨0, _⟩ => show win1_2.index t (0 : Fin 2) * 128 + 1 * (y 0).val = (y 0).val; rw [e4]; omega
  | ⟨1, _⟩ => show win1_2.index t (1 : Fin 2) * 128 + 1 * (y 1).val = (y 1).val; rw [e5]; omega

/-- At a point, first result: the stored value at row `p`, column `q` of block `tt` is `selfT` at row `2000 tt + p`,
    column `q`, whenever the loaded blocks are the rows `2000 tt …` of the table and the whole weights. -/
theorem point_self (a0 : FVec Ideal S100000x128 .f32) (a2 : FVec Ideal S128x128 .f32)
    (x0 : FVec Ideal S2000x128 .f32) (x2 : FVec Ideal S128x128 .f32)
    (tt : Nat) (htt : tt < 50)
    (h0 : ∀ (p : Fin 2000) (k : Fin 128), x0 (ix2 p k) = a0 (ix2 (⟨tt * 2000 + p.val, by omega⟩ : Fin 100000) k))
    (h2 : ∀ y, x2 y = a2 y)
    (p : Fin 2000) (q : Fin 128) (i : S100000x128.Idx) (hi0 : (i 0).val = tt * 2000 + p.val) (hi1 : (i 1).val = q.val) :
    k1_pay2 (F := Ideal) x0 x2 (ix2 p q) = selfT a0 a2 i := by
  rw [pay2_apply]
  have er : rw2 i = (⟨tt * 2000 + p.val, by omega⟩ : Fin 100000) := Fin.ext hi0
  have ec : cl2 i = q := Fin.ext hi1
  unfold selfT
  rw [er, ec]
  refine Finset.sum_congr rfl fun k _ => ?_
  rw [h0, h2]

/-- At a point, second result: the stored value at row `p`, column `q` of block `tt` is `scaled` at row `2000 tt + p`,
    column `q`, whenever the loaded blocks are the rows `2000 tt …` of the table and of the degree column. -/
theorem point_scaled (a0 : FVec Ideal S100000x128 .f32) (a1 : FVec Ideal S100000x1 .f32)
    (x0 : FVec Ideal S2000x128 .f32) (x1 : FVec Ideal S2000x1 .f32)
    (tt : Nat) (htt : tt < 50)
    (h0 : ∀ (p : Fin 2000) (k : Fin 128), x0 (ix2 p k) = a0 (ix2 (⟨tt * 2000 + p.val, by omega⟩ : Fin 100000) k))
    (h1 : ∀ (p : Fin 2000), x1 (ix2 p (0 : Fin 1)) = a1 (ix2 (⟨tt * 2000 + p.val, by omega⟩ : Fin 100000) (0 : Fin 1)))
    (p : Fin 2000) (q : Fin 128) (i : S100000x128.Idx) (hi0 : (i 0).val = tt * 2000 + p.val) (hi1 : (i 1).val = q.val) :
    k1_pay3 (F := Ideal) x0 x1 (ix2 p q) = scaled a0 a1 i := by
  rw [pay3_apply]
  have er : rw2 i = (⟨tt * 2000 + p.val, by omega⟩ : Fin 100000) := Fin.ext hi0
  have hi : i = ix2 (⟨tt * 2000 + p.val, by omega⟩ : Fin 100000) q := funext fun a => Fin.ext (by
    match a with
    | ⟨0, _⟩ => exact hi0
    | ⟨1, _⟩ => exact hi1)
  unfold scaled
  rw [er, h0, h1, ← hi]

/-- What point `t` writes back to the first result is block `t` of `selfT` of the arrays as the call finds them. -/
theorem flushed_self (c : Dev nD) (t : Fin cfg1.N) :
    (dat1 V c).flushed 3 t = ((cfg1.win 3).blk t).view.read (Elt Ideal)
      (selfT (V c (Pipeline.arrRef spec1 0)) (V c (Pipeline.arrRef spec1 2))) := by
  show (cfg1.win 3).cut (grid1.coords t) ((dat1 V c).after 3 t) = _
  rw [after1_3]
  unfold out1_3
  rw [View.canon_unit_zero hz]
  simp only [View.ld_unit_zero (S := S2000x128) hz, View.ld_unit_zero (S := S128x128) hz]
  obtain ⟨-, -, -, -, -, -, e6, e7, -⟩ := idx_facts t
  funext j
  obtain ⟨p, q, rfl⟩ : ∃ (p : Fin 2000) (q : Fin 128), j = ix2 p q := ⟨j 0, j 1, eq_ix2 j⟩
  refine point_self _ _ _ _ t.val (t_lt t) (rows_read V c t) (weights_read V c t) p q _ ?_ ?_
  · show win1_3.index t (0 : Fin 2) * 2000 + 1 * p.val = t.val * 2000 + p.val; rw [e6]; omega
  · show win1_3.index t (1 : Fin 2) * 128 + 1 * q.val = q.val; rw [e7]; omega

/-- What point `t` writes back to the second result is block `t` of `scaled` of the arrays as the call finds them. -/
theorem flushed_scaled (c : Dev nD) (t : Fin cfg1.N) :
    (dat1 V c).flushed 4 t = ((cfg1.win 4).blk t).view.read (Elt Ideal)
      (scaled (V c (Pipeline.arrRef spec1 0)) (V c (Pipeline.arrRef spec1 1))) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz]
  obtain ⟨-, -, -, -, -, -, -, -, e8, e9⟩ := idx_facts t
  funext j
  obtain ⟨p, q, rfl⟩ : ∃ (p : Fin 2000) (q : Fin 128), j = ix2 p q := ⟨j 0, j 1, eq_ix2 j⟩
  refine point_scaled _ _ _ _ t.val (t_lt t) (rows_read V c t) (deg_read V c t) p q _ ?_ ?_
  · show win1_4.index t (0 : Fin 2) * 2000 + 1 * p.val = t.val * 2000 + p.val; rw [e8]; omega
  · show win1_4.index t (1 : Fin 2) * 128 + 1 * q.val = q.val; rw [e9]; omega

/-- An index of the first result is in point `t`'s block iff each coordinate is in the block's range on its axis. -/
theorem mem_blk3 (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v23_0).slice (win1_3.rect t)).set ↔ _
  rw [View.set_slice_whole, Rect.mem_set_unit]
  exact Iff.rfl

/-- The same for the second result. -/
theorem mem_blk4 (t : Fin cfg1.N) (i : S100000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v23_1).slice (win1_4.rect t)).set ↔ _
  rw [View.set_slice_whole, Rect.mem_set_unit]
  exact Iff.rfl

/-- Row `r` of the first result is written back by point `r / 2000`: the blocks tile the table. -/
theorem cover3 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 2000 < cfg1.N := by rw [show cfg1.N = 50 from N_1]; omega
  obtain ⟨-, -, -, -, -, -, e6, e7, -⟩ := idx_facts ⟨(i 0).val / 2000, hN⟩
  refine ⟨⟨(i 0).val / 2000, hN⟩, flush1_3 _, ?_⟩
  rw [mem_blk3]
  intro a
  match a with
  | ⟨0, _⟩ =>
    show win1_3.index ⟨(i 0).val / 2000, hN⟩ (0 : Fin 2) * 2000 ≤ (i 0).val ∧ (i 0).val < win1_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, hN⟩ (1 : Fin 2) * 128 ≤ (i 1).val ∧ (i 1).val < win1_3.index ⟨(i 0).val / 2000, hN⟩ (1 : Fin 2) * 128 + 128
    rw [e7]; omega

/-- Row `r` of the second result is written back by point `r / 2000`: the blocks tile the table. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 2000 < cfg1.N := by rw [show cfg1.N = 50 from N_1]; omega
  obtain ⟨-, -, -, -, -, -, -, -, e8, e9⟩ := idx_facts ⟨(i 0).val / 2000, hN⟩
  refine ⟨⟨(i 0).val / 2000, hN⟩, flush1_4 _, ?_⟩
  rw [mem_blk4]
  intro a
  match a with
  | ⟨0, _⟩ =>
    show win1_4.index ⟨(i 0).val / 2000, hN⟩ (0 : Fin 2) * 2000 ≤ (i 0).val ∧ (i 0).val < win1_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win1_4.index ⟨(i 0).val / 2000, hN⟩ (1 : Fin 2) * 128 ≤ (i 1).val ∧ (i 1).val < win1_4.index ⟨(i 0).val / 2000, hN⟩ (1 : Fin 2) * 128 + 128
    rw [e9]; omega

/-- THE FIRST ARRAY the stage leaves: `selfT` of the table and the weights it was given. -/
theorem final_self (c : Dev nD) :
    (dat1 V c).arrAt 3 cfg1.N = selfT (V c (Pipeline.arrRef spec1 0)) (V c (Pipeline.arrRef spec1 2)) :=
  (dat1 V c).arrAt_eq_of_cover 3 _ (fun t _ => flushed_self V c t) (cover3)

/-- THE SECOND ARRAY the stage leaves: `scaled` of the table and the degree column it was given. -/
theorem final_scaled (c : Dev nD) :
    (dat1 V c).arrAt 4 cfg1.N = scaled (V c (Pipeline.arrRef spec1 0)) (V c (Pipeline.arrRef spec1 1)) :=
  (dat1 V c).arrAt_eq_of_cover 4 _ (fun t _ => flushed_scaled V c t) (cover4)

end Cert.KernelIdeal.Region1

end
-- ==== Proof.Region2.lean ====
/-
  The first combining stage, `max (hs + (agg · W + b) · d^(-1/2)) 0`, as the pipelined call computes it: the node table
  is cut into 50 blocks of 2000 rows, and block `t` of the result is formed from block `t` of the aggregated rows, block
  `t` of the self-transformed rows and block `t` of the degree column, with the whole weight matrix and the bias row.
  Row `r` of the table lies in block `r / 2000` at offset `r % 2000`, so the blocks written back tile the table, and
  the array the call leaves is `Spec.post` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs_col (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at an entry: the sum over the 128 features. -/
theorem dot_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact rhs_col _ _)
  rw [el, er]

/-- A column `[a, 1]` repeated across `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores, at row `p` and column `q` of the block: the self-transformed entry plus the affine image of the
    aggregated row, scaled by the inverse square root of the row's degree, cut off below at zero. -/
theorem pay_apply (x0 : FVec Ideal S2000x128 .f32) (x3 : FVec Ideal S128x128 .f32) (x4 : FVec Ideal S1x128 .f32)
    (x2 : FVec Ideal S2000x1 .f32) (x1 : FVec Ideal S2000x128 .f32) (p : Fin 2000) (q : Fin 128) :
    k2_pay1 (F := Ideal) x0 x3 x4 x2 x1 (ix2 p q)
      = max (x1 (ix2 p q) + ((∑ k : Fin 128, x0 (ix2 p k) * x3 (ix2 k q)) + x4 (ix2 (0 : Fin 1) q))
          * Ideal.rsqrt (x2 (ix2 p (0 : Fin 1)))) (Ideal.ofBits .f32 0x00000000#32) := by
  unfold k2_pay1
  refine (maximumf_apply _ _ (ix2 p q)).trans ?_
  refine congrArg₂ max ?_ rfl
  refine (addf_apply _ _ (ix2 p q)).trans ?_
  refine congrArg₂ (· + ·) ?_ ?_
  · exact congrFun (shapeCast_self x1 _) (ix2 p q)
  refine (mulf_apply _ _ (ix2 p q)).trans ?_
  refine congrArg₂ (· * ·) ?_ ?_
  · refine (addf_apply _ _ (ix2 p q)).trans ?_
    refine congrArg₂ (· + ·) ?_ ?_
    · refine (dot_apply _ _ p q).trans ?_
      exact Finset.sum_congr rfl fun k _ =>
        congrArg (fun v : FVec Ideal S2000x128 .f32 => v (ix2 p k) * x3 (ix2 k q)) (shapeCast_self x0 _)
    · refine (broadcastTo_1b_ab_apply _ broadcasts_S1x128_S2000x128 p q).trans ?_
      exact congrFun (shapeCast_self x4 _) (ix2 (0 : Fin 1) q)
  · refine (broadcastTo_a1_ab_apply _ broadcasts_S2000x1_S2000x128 p q).trans ?_
    exact congrArg Ideal.rsqrt (congrFun (shapeCast_self x2 _) (ix2 p (0 : Fin 1)))

/-- The printed index maps over the grid: the aggregated rows, the self-transformed rows, the degree column and the output
    move block by block with the grid point; the weight matrix and the bias row are taken whole at every point. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

theorem t_lt (t : Fin cfg2.N) : t.val < 50 := N_2 ▸ t.isLt

/-- Block `t` of the aggregated rows: row `p` of the block is row `2000 t + p` of the table. -/
theorem agg_read (c : Dev nD) (t : Fin cfg2.N) (p : Fin 2000) (k : Fin 128) :
    iblk2 V c 0 t (ix2 p k)
      = V c (Pipeline.arrRef spec2 0) (ix2 (⟨t.val * 2000 + p.val, by have := t_lt t; omega⟩ : Fin 100000) k) := by
  obtain ⟨e0, e1, -⟩ := idx_facts t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 128 + 1 * k.val = k.val; rw [e1]; omega

/-- Block `t` of the self-transformed rows: row `p` of the block is row `2000 t + p` of the table. -/
theorem hs_read (c : Dev nD) (t : Fin cfg2.N) (p : Fin 2000) (k : Fin 128) :
    iblk2 V c 1 t (ix2 p k)
      = V c (Pipeline.arrRef spec2 1) (ix2 (⟨t.val * 2000 + p.val, by have := t_lt t; omega⟩ : Fin 100000) k) := by
  obtain ⟨-, -, e2, e3, -⟩ := idx_facts t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = t.val * 2000 + p.val; rw [e2]; omega
  | ⟨1, _⟩ => show win2_1.index t (1 : Fin 2) * 128 + 1 * k.val = k.val; rw [e3]; omega

/-- Block `t` of the degree column: entry `p` of the block is the degree of node `2000 t + p`. -/
theorem deg_read (c : Dev nD) (t : Fin cfg2.N) (p : Fin 2000) (z : Fin 1) :
    iblk2 V c 2 t (ix2 p z)
      = V c (Pipeline.arrRef spec2 2) (ix2 (⟨t.val * 2000 + p.val, by have := t_lt t; omega⟩ : Fin 100000) z) := by
  obtain ⟨-, -, -, -, e4, e5, -⟩ := idx_facts t
  show V c (Pipeline.arrRef spec2 2) (((cfg2.win 2).blk t).view.emb (ix2 p z)) = _
  refine congrArg (V c (Pipeline.arrRef spec2 2)) (funext fun a => Fin.ext ?_)
  match a with
  | ⟨0, _⟩ => show win2_2.index t (0 : Fin 2) * 2000 + 1 * p.val = t.val * 2000 + p.val; rw [e4]; omega
  | ⟨1, _⟩ => show win2_2.index t (1 : Fin 2) * 1 + 1 * z.val = z.val; rw [e5]; omega

/-- The weight matrix is taken whole at every point. -/
theorem weights_read (c : Dev nD) (t : Fin cfg2.N) (y : S128x128.Idx) :
    iblk2 V c 3 t y = V c (Pipeline.arrRef spec2 3) y := by
  obtain ⟨-, -, -, -, -, -, e6, e7, -⟩ := idx_facts t
  show V c (Pipeline.arrRef spec2 3) (((cfg2.win 3).blk t).view.emb y) = _
  refine congrArg (V c (Pipeline.arrRef spec2 3)) (funext fun a => Fin.ext ?_)
  match a with
  | ⟨0, _⟩ => show win2_3.index t (0 : Fin 2) * 128 + 1 * (y 0).val = (y 0).val; rw [e6]; omega
  | ⟨1, _⟩ => show win2_3.index t (1 : Fin 2) * 128 + 1 * (y 1).val = (y 1).val; rw [e7]; omega

/-- The bias row is taken whole at every point. -/
theorem bias_read (c : Dev nD) (t : Fin cfg2.N) (y : S1x128.Idx) :
    iblk2 V c 4 t y = V c (Pipeline.arrRef spec2 4) y := by
  obtain ⟨-, -, -, -, -, -, -, -, e8, e9, -⟩ := idx_facts t
  show V c (Pipeline.arrRef spec2 4) (((cfg2.win 4).blk t).view.emb y) = _
  refine congrArg (V c (Pipeline.arrRef spec2 4)) (funext fun a => Fin.ext ?_)
  match a with
  | ⟨0, _⟩ => show win2_4.index t (0 : Fin 2) * 1 + 1 * (y 0).val = (y 0).val; rw [e8]; omega
  | ⟨1, _⟩ => show win2_4.index t (1 : Fin 2) * 128 + 1 * (y 1).val = (y 1).val; rw [e9]; omega

/-- At a point: the body's stored value at row `p`, column `q` of block `tt` is `post` at row `2000 tt + p`, column `q`,
    whenever the loaded blocks are the rows `2000 tt …` of the three tables, the whole weights and the whole bias. -/
theorem point_eq (a0 a1 : FVec Ideal S100000x128 .f32) (a2 : FVec Ideal S100000x1 .f32) (a3 : FVec Ideal S128x128 .f32)
    (a4 : FVec Ideal S1x128 .f32)
    (x0 x1 : FVec Ideal S2000x128 .f32) (x2 : FVec Ideal S2000x1 .f32) (x3 : FVec Ideal S128x128 .f32)
    (x4 : FVec Ideal S1x128 .f32)
    (tt : Nat) (htt : tt < 50)
    (h0 : ∀ (p : Fin 2000) (k : Fin 128), x0 (ix2 p k) = a0 (ix2 (⟨tt * 2000 + p.val, by omega⟩ : Fin 100000) k))
    (h1 : ∀ (p : Fin 2000) (k : Fin 128), x1 (ix2 p k) = a1 (ix2 (⟨tt * 2000 + p.val, by omega⟩ : Fin 100000) k))
    (h2 : ∀ (p : Fin 2000) (z : Fin 1), x2 (ix2 p z) = a2 (ix2 (⟨tt * 2000 + p.val, by omega⟩ : Fin 100000) z))
    (h3 : ∀ y, x3 y = a3 y) (h4 : ∀ y, x4 y = a4 y)
    (p : Fin 2000) (q : Fin 128) (i : S100000x128.Idx) (hi0 : (i 0).val = tt * 2000 + p.val) (hi1 : (i 1).val = q.val) :
    k2_pay1 (F := Ideal) x0 x3 x4 x2 x1 (ix2 p q) = Spec.post a0 a1 a2 a3 a4 i := by
  rw [pay_apply]
  have er : rw2 i = (⟨tt * 2000 + p.val, by omega⟩ : Fin 100000) := Fin.ext hi0
  have ec : cl2 i = q := Fin.ext hi1
  have ei : a1 i = x1 (ix2 p q) := by
    rw [h1]
    exact congrArg a1 ((eq_ix2 i).trans (congrArg₂ ix2 er ec))
  unfold Spec.post
  rw [er, ec, ei, h4, h2]
  refine congrArg₂ max ?_ rfl
  refine congrArg₂ (· + ·) rfl ?_
  refine congrArg₂ (· * ·) ?_ rfl
  refine congrArg₂ (· + ·) ?_ rfl
  refine Finset.sum_congr rfl fun k _ => ?_
  rw [h0, h3]

/-- What point `t` writes back is block `t` of `post` of the arrays as the call finds them. -/
theorem flushed_eq (c : Dev nD) (t : Fin cfg2.N) :
    (dat2 V c).flushed 5 t = ((cfg2.win 5).blk t).view.read (Elt Ideal)
      (Spec.post (V c (Pipeline.arrRef spec2 0)) (V c (Pipeline.arrRef spec2 1)) (V c (Pipeline.arrRef spec2 2))
        (V c (Pipeline.arrRef spec2 3)) (V c (Pipeline.arrRef spec2 4))) := by
  show (cfg2.win 5).cut (grid2.coords t) ((dat2 V c).after 5 t) = _
  rw [after2_5]
  unfold out2_5
  rw [View.canon_unit_zero hz]
  simp only [View.ld_unit_zero (S := S2000x128) hz, View.ld_unit_zero (S := S128x128) hz, View.ld_unit_zero (S := S1x128) hz,
    View.ld_unit_zero (S := S2000x1) hz]
  obtain ⟨-, -, -, -, -, -, -, -, -, -, e10, e11⟩ := idx_facts t
  funext j
  obtain ⟨p, q, rfl⟩ : ∃ (p : Fin 2000) (q : Fin 128), j = ix2 p q := ⟨j 0, j 1, eq_ix2 j⟩
  refine point_eq _ _ _ _ _ _ _ _ _ _ t.val (t_lt t) (agg_read V c t) (hs_read V c t) (deg_read V c t)
    (weights_read V c t) (bias_read V c t) p q _ ?_ ?_
  · show win2_5.index t (0 : Fin 2) * 2000 + 1 * p.val = t.val * 2000 + p.val; rw [e10]; omega
  · show win2_5.index t (1 : Fin 2) * 128 + 1 * q.val = q.val; rw [e11]; omega

/-- An index of the result table is in point `t`'s block iff each coordinate is in the block's range on its axis. -/
theorem mem_blk (t : Fin cfg2.N) (i : S100000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v38).slice (win2_5.rect t)).set ↔ _
  rw [View.set_slice_whole, Rect.mem_set_unit]
  exact Iff.rfl

/-- Row `r` is written back by point `r / 2000`: the blocks tile the table. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : (i 0).val / 2000 < cfg2.N := by rw [show cfg2.N = 50 from N_2]; omega
  obtain ⟨-, -, -, -, -, -, -, -, -, -, e10, e11⟩ := idx_facts ⟨(i 0).val / 2000, hN⟩
  refine ⟨⟨(i 0).val / 2000, hN⟩, flush2_5 _, ?_⟩
  rw [mem_blk]
  intro a
  match a with
  | ⟨0, _⟩ =>
    show win2_5.index ⟨(i 0).val / 2000, hN⟩ (0 : Fin 2) * 2000 ≤ (i 0).val ∧ (i 0).val < win2_5.index ⟨(i 0).val / 2000, hN⟩ (0 : Fin 2) * 2000 + 2000
    rw [e10]; show (i 0).val / 2000 * 2000 ≤ (i 0).val ∧ (i 0).val < (i 0).val / 2000 * 2000 + 2000; omega
  | ⟨1, _⟩ =>
    show win2_5.index ⟨(i 0).val / 2000, hN⟩ (1 : Fin 2) * 128 ≤ (i 1).val ∧ (i 1).val < win2_5.index ⟨(i 0).val / 2000, hN⟩ (1 : Fin 2) * 128 + 128
    rw [e11]; omega

/-- THE ARRAY the first combining stage leaves: `post` of the arrays it was given. -/
theorem final (c : Dev nD) :
    (dat2 V c).arrAt 5 cfg2.N
      = Spec.post (V c (Pipeline.arrRef spec2 0)) (V c (Pipeline.arrRef spec2 1)) (V c (Pipeline.arrRef spec2 2))
          (V c (Pipeline.arrRef spec2 3)) (V c (Pipeline.arrRef spec2 4)) :=
  (dat2 V c).arrAt_eq_of_cover 5 _ (fun t _ => flushed_eq V c t) (cover)

end Cert.KernelIdeal.Region2

end
-- ==== Proof.Region3.lean ====
/-
  The second pre-aggregation stage, as the pipelined call computes it.  The node table `h` is cut into 50 blocks of
  2000 rows, the degree column into 50 blocks of 2000 entries, and the weight matrix is taken whole.  Block `t` of the
  first result is the product of block `t` of `h` with the weights; block `t` of the second is block `t` of `h` with
  every row multiplied by the inverse square root of that row's degree (the column of inverse square roots repeated
  along the row).  Row `r` of the table lies in block `r / 2000` at offset `r % 2000`, so the blocks written back tile
  each table, and the two arrays the call leaves are `Spec.selfT` and `Spec.scaled` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs_col (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at an entry: the sum over the 128 features. -/
theorem dot_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact rhs_col _ _)
  rw [el, er]

/-- One column repeated along every row: entry `(p, c)` of the result is entry `(p, 0)` of the column. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores in the first result, at row `p` and column `q` of the block. -/
theorem pay2_apply (x0 : FVec Ideal S2000x128 .f32) (x2 : FVec Ideal S128x128 .f32) (p : Fin 2000) (q : Fin 128) :
    k3_pay2 (F := Ideal) x0 x2 (ix2 p q) = ∑ k : Fin 128, x0 (ix2 p k) * x2 (ix2 k q) := by
  unfold k3_pay2 k3_pay1
  rw [shapeCast_self]
  exact dot_apply _ _ p q

/-- What the body stores in the second result, at row `p` and column `q` of the block. -/
theorem pay3_apply (x0 : FVec Ideal S2000x128 .f32) (x1 : FVec Ideal S2000x1 .f32) (p : Fin 2000) (q : Fin 128) :
    k3_pay3 (F := Ideal) x0 x1 (ix2 p q) = x0 (ix2 p q) * Ideal.rsqrt (x1 (ix2 p (0 : Fin 1))) := by
  unfold k3_pay3 k3_pay1
  refine (mulf_apply _ _ (ix2 p q)).trans ?_
  refine congrArg₂ (· * ·) ?_ ?_
  · rw [shapeCast_self]
  · refine (bcast_col _ _ p q).trans ?_
    show Ideal.rsqrt (shapeCast S2000x1 x1 _ (ix2 p (0 : Fin 1))) = _
    rw [shapeCast_self]

/-- The printed index maps over the grid: the rows of `h`, the degree column and both results move block by block
    with the grid point; the weight matrix is taken whole at every point. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0 :=
  (by decide +kernel : ∀ t : Fin grid3.N, _)

theorem t_lt (t : Fin cfg3.N) : t.val < 50 := N_3 ▸ t.isLt

/-- Block `t` of the rows of `h`: row `p` of the block is row `2000 t + p` of the table. -/
theorem rows_read (c : Dev nD) (t : Fin cfg3.N) (p : Fin 2000) (k : Fin 128) :
    iblk3 V c 0 t (ix2 p k)
      = V c (Pipeline.arrRef spec3 0) (ix2 (⟨t.val * 2000 + p.val, by have := t_lt t; omega⟩ : Fin 100000) k) := by
  obtain ⟨e0, e1, -⟩ := idx_facts t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 2000 + 1 * p.val = t.val * 2000 + p.val; rw [e0]; omega
  | ⟨1, _⟩ => show win3_0.index t (1 : Fin 2) * 128 + 1 * k.val = k.val; rw [e1]; omega

/-- Block `t` of the degree column: entry `p` of the block is entry `2000 t + p` of the column. -/
theorem deg_read (c : Dev nD) (t : Fin cfg3.N) (p : Fin 2000) :
    iblk3 V c 1 t (ix2 p (0 : Fin 1))
      = V c (Pipeline.arrRef spec3 1) (ix2 (⟨t.val * 2000 + p.val, by have := t_lt t; omega⟩ : Fin 100000) (0 : Fin 1)) := by
  obtain ⟨-, -, e2, e3, -⟩ := idx_facts t
  show V c (Pipeline.arrRef spec3 1) (((cfg3.win 1).blk t).view.emb (ix2 p (0 : Fin 1))) = _
  refine congrArg (V c (Pipeline.arrRef spec3 1)) (funext fun a => Fin.ext ?_)
  match a with
  | ⟨0, _⟩ => show win3_1.index t (0 : Fin 2) * 2000 + 1 * p.val = t.val * 2000 + p.val; rw [e2]; omega
  | ⟨1, _⟩ => show win3_1.index t (1 : Fin 2) * 1 + 1 * 0 = 0; rw [e3]

/-- The weight matrix is taken whole at every point. -/
theorem weights_read (c : Dev nD) (t : Fin cfg3.N) (y : S128x128.Idx) :
    iblk3 V c 2 t y = V c (Pipeline.arrRef spec3 2) y := by
  obtain ⟨-, -, -, -, e4, e5, -⟩ := idx_facts t
  show V c (Pipeline.arrRef spec3 2) (((cfg3.win 2).blk t).view.emb y) = _
  refine congrArg (V c (Pipeline.arrRef spec3 2)) (funext fun a => Fin.ext ?_)
  match a with
  | ⟨0, _⟩ => show win3_2.index t (0 : Fin 2) * 128 + 1 * (y 0).val = (y 0).val; rw [e4]; omega
  | ⟨1, _⟩ => show win3_2.index t (1 : Fin 2) * 128 + 1 * (y 1).val = (y 1).val; rw [e5]; omega

/-- At a point, first result: the stored value at row `p`, column `q` of block `tt` is `selfT` at row `2000 tt + p`,
    column `q`, whenever the loaded blocks are the rows `2000 tt …` of the table and the whole weights. -/
theorem point_self (a0 : FVec Ideal S100000x128 .f32) (a2 : FVec Ideal S128x128 .f32)
    (x0 : FVec Ideal S2000x128 .f32) (x2 : FVec Ideal S128x128 .f32)
    (tt : Nat) (htt : tt < 50)
    (h0 : ∀ (p : Fin 2000) (k : Fin 128), x0 (ix2 p k) = a0 (ix2 (⟨tt * 2000 + p.val, by omega⟩ : Fin 100000) k))
    (h2 : ∀ y, x2 y = a2 y)
    (p : Fin 2000) (q : Fin 128) (i : S100000x128.Idx) (hi0 : (i 0).val = tt * 2000 + p.val) (hi1 : (i 1).val = q.val) :
    k3_pay2 (F := Ideal) x0 x2 (ix2 p q) = selfT a0 a2 i := by
  rw [pay2_apply]
  have er : rw2 i = (⟨tt * 2000 + p.val, by omega⟩ : Fin 100000) := Fin.ext hi0
  have ec : cl2 i = q := Fin.ext hi1
  unfold selfT
  rw [er, ec]
  refine Finset.sum_congr rfl fun k _ => ?_
  rw [h0, h2]

/-- At a point, second result: the stored value at row `p`, column `q` of block `tt` is `scaled` at row `2000 tt + p`,
    column `q`, whenever the loaded blocks are the rows `2000 tt …` of the table and of the degree column. -/
theorem point_scaled (a0 : FVec Ideal S100000x128 .f32) (a1 : FVec Ideal S100000x1 .f32)
    (x0 : FVec Ideal S2000x128 .f32) (x1 : FVec Ideal S2000x1 .f32)
    (tt : Nat) (htt : tt < 50)
    (h0 : ∀ (p : Fin 2000) (k : Fin 128), x0 (ix2 p k) = a0 (ix2 (⟨tt * 2000 + p.val, by omega⟩ : Fin 100000) k))
    (h1 : ∀ (p : Fin 2000), x1 (ix2 p (0 : Fin 1)) = a1 (ix2 (⟨tt * 2000 + p.val, by omega⟩ : Fin 100000) (0 : Fin 1)))
    (p : Fin 2000) (q : Fin 128) (i : S100000x128.Idx) (hi0 : (i 0).val = tt * 2000 + p.val) (hi1 : (i 1).val = q.val) :
    k3_pay3 (F := Ideal) x0 x1 (ix2 p q) = scaled a0 a1 i := by
  rw [pay3_apply]
  have er : rw2 i = (⟨tt * 2000 + p.val, by omega⟩ : Fin 100000) := Fin.ext hi0
  have hi : i = ix2 (⟨tt * 2000 + p.val, by omega⟩ : Fin 100000) q := funext fun a => Fin.ext (by
    match a with
    | ⟨0, _⟩ => exact hi0
    | ⟨1, _⟩ => exact hi1)
  unfold scaled
  rw [er, h0, h1, ← hi]

/-- What point `t` writes back to the first result is block `t` of `selfT` of the arrays as the call finds them. -/
theorem flushed_self (c : Dev nD) (t : Fin cfg3.N) :
    (dat3 V c).flushed 3 t = ((cfg3.win 3).blk t).view.read (Elt Ideal)
      (selfT (V c (Pipeline.arrRef spec3 0)) (V c (Pipeline.arrRef spec3 2))) := by
  show (cfg3.win 3).cut (grid3.coords t) ((dat3 V c).after 3 t) = _
  rw [after3_3]
  unfold out3_3
  rw [View.canon_unit_zero hz]
  simp only [View.ld_unit_zero (S := S2000x128) hz, View.ld_unit_zero (S := S128x128) hz]
  obtain ⟨-, -, -, -, -, -, e6, e7, -⟩ := idx_facts t
  funext j
  obtain ⟨p, q, rfl⟩ : ∃ (p : Fin 2000) (q : Fin 128), j = ix2 p q := ⟨j 0, j 1, eq_ix2 j⟩
  refine point_self _ _ _ _ t.val (t_lt t) (rows_read V c t) (weights_read V c t) p q _ ?_ ?_
  · show win3_3.index t (0 : Fin 2) * 2000 + 1 * p.val = t.val * 2000 + p.val; rw [e6]; omega
  · show win3_3.index t (1 : Fin 2) * 128 + 1 * q.val = q.val; rw [e7]; omega

/-- What point `t` writes back to the second result is block `t` of `scaled` of the arrays as the call finds them. -/
theorem flushed_scaled (c : Dev nD) (t : Fin cfg3.N) :
    (dat3 V c).flushed 4 t = ((cfg3.win 4).blk t).view.read (Elt Ideal)
      (scaled (V c (Pipeline.arrRef spec3 0)) (V c (Pipeline.arrRef spec3 1))) := by
  show (cfg3.win 4).cut (grid3.coords t) ((dat3 V c).after 4 t) = _
  rw [after3_4]
  unfold out3_4
  rw [View.canon_unit_zero hz]
  simp only [View.ld_unit_zero (S := S2000x128) hz, View.ld_unit_zero (S := S2000x1) hz]
  obtain ⟨-, -, -, -, -, -, -, -, e8, e9⟩ := idx_facts t
  funext j
  obtain ⟨p, q, rfl⟩ : ∃ (p : Fin 2000) (q : Fin 128), j = ix2 p q := ⟨j 0, j 1, eq_ix2 j⟩
  refine point_scaled _ _ _ _ t.val (t_lt t) (rows_read V c t) (deg_read V c t) p q _ ?_ ?_
  · show win3_4.index t (0 : Fin 2) * 2000 + 1 * p.val = t.val * 2000 + p.val; rw [e8]; omega
  · show win3_4.index t (1 : Fin 2) * 128 + 1 * q.val = q.val; rw [e9]; omega

/-- An index of the first result is in point `t`'s block iff each coordinate is in the block's range on its axis. -/
theorem mem_blk3 (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v40_0).slice (win3_3.rect t)).set ↔ _
  rw [View.set_slice_whole, Rect.mem_set_unit]
  exact Iff.rfl

/-- The same for the second result. -/
theorem mem_blk4 (t : Fin cfg3.N) (i : S100000x128.Idx) :
    i ∈ ((cfg3.win 4).blk t).view.set ↔ ∀ a : Fin 2, win3_4.index t a * S2000x128.size a ≤ (i a).val ∧ (i a).val < win3_4.index t a * S2000x128.size a + S2000x128.size a := by
  show i ∈ ((View.whole main_v40_1).slice (win3_4.rect t)).set ↔ _
  rw [View.set_slice_whole, Rect.mem_set_unit]
  exact Iff.rfl

/-- Row `r` of the first result is written back by point `r / 2000`: the blocks tile the table. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : (i 0).val / 2000 < cfg3.N := by rw [show cfg3.N = 50 from N_3]; omega
  obtain ⟨-, -, -, -, -, -, e6, e7, -⟩ := idx_facts ⟨(i 0).val / 2000, hN⟩
  refine ⟨⟨(i 0).val / 2000, hN⟩, flush3_3 _, ?_⟩
  rw [mem_blk3]
  intro a
  match a with
  | ⟨0, _⟩ =>
    show win3_3.index ⟨(i 0).val / 2000, hN⟩ (0 : Fin 2) * 2000 ≤ (i 0).val ∧ (i 0).val < win3_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win3_3.index ⟨(i 0).val / 2000, hN⟩ (1 : Fin 2) * 128 ≤ (i 1).val ∧ (i 1).val < win3_3.index ⟨(i 0).val / 2000, hN⟩ (1 : Fin 2) * 128 + 128
    rw [e7]; omega

/-- Row `r` of the second result is written back by point `r / 2000`: the blocks tile the table. -/
theorem cover4 (i : S100000x128.Idx) :
    ∃ t : Fin cfg3.N, (cfg3.win 4).flush t = true ∧ i ∈ ((cfg3.win 4).blk t).view.set := by
  have hi0 : (i 0).val < 100000 := (i 0).isLt
  have hi1 : (i 1).val < 128 := (i 1).isLt
  have hN : (i 0).val / 2000 < cfg3.N := by rw [show cfg3.N = 50 from N_3]; omega
  obtain ⟨-, -, -, -, -, -, -, -, e8, e9⟩ := idx_facts ⟨(i 0).val / 2000, hN⟩
  refine ⟨⟨(i 0).val / 2000, hN⟩, flush3_4 _, ?_⟩
  rw [mem_blk4]
  intro a
  match a with
  | ⟨0, _⟩ =>
    show win3_4.index ⟨(i 0).val / 2000, hN⟩ (0 : Fin 2) * 2000 ≤ (i 0).val ∧ (i 0).val < win3_4.index ⟨(i 0).val / 2000, hN⟩ (0 : Fin 2) * 2000 + 2000
    rw [e8]; show (i 0).val / 2000 * 2000 ≤ (i 0).val ∧ (i 0).val < (i 0).val / 2000 * 2000 + 2000; omega
  | ⟨1, _⟩ =>
    show win3_4.index ⟨(i 0).val / 2000, hN⟩ (1 : Fin 2) * 128 ≤ (i 1).val ∧ (i 1).val < win3_4.index ⟨(i 0).val / 2000, hN⟩ (1 : Fin 2) * 128 + 128
    rw [e9]; omega

/-- THE FIRST ARRAY the stage leaves: `selfT` of the table and the weights it was given. -/
theorem final_self (c : Dev nD) :
    (dat3 V c).arrAt 3 cfg3.N = selfT (V c (Pipeline.arrRef spec3 0)) (V c (Pipeline.arrRef spec3 2)) :=
  (dat3 V c).arrAt_eq_of_cover 3 _ (fun t _ => flushed_self V c t) (cover3)

/-- THE SECOND ARRAY the stage leaves: `scaled` of the table and the degree column it was given. -/
theorem final_scaled (c : Dev nD) :
    (dat3 V c).arrAt 4 cfg3.N = scaled (V c (Pipeline.arrRef spec3 0)) (V c (Pipeline.arrRef spec3 1)) :=
  (dat3 V c).arrAt_eq_of_cover 4 _ (fun t _ => flushed_scaled V c t) (cover4)

end Cert.KernelIdeal.Region3

end
-- ==== Proof.Region4.lean ====
/-
  The second combining stage, `max (hs + (agg · W + b) · d^(-1/2)) 0`, as the pipelined call computes it: the node table
  is cut into 50 blocks of 2000 rows, and block `t` of the result is formed from block `t` of the aggregated rows, block
  `t` of the self-transformed rows and block `t` of the degree column, with the whole weight matrix and the bias row.
  Row `r` of the table lies in block `r / 2000` at offset `r % 2000`, so the blocks written back tile the table, and
  the array the call leaves is `Spec.post` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x128.Idx) (r : dot_S2000x128_S128x128_S2000x128_1_0_0_1_n_n.contr.Idx) : (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem rhs_col (i : S2000x128.Idx) (r : dot_S2000x128_S128x128_S2000x128_1_0_0_1_n_n.contr.Idx) : (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The block product at an entry: the sum over the 128 features. -/
theorem dot_apply (x : FVec Ideal S2000x128 .bf16) (w : FVec Ideal S128x128 .bf16) (p : Fin 2000) (q : Fin 128) :
    matmul dot_S2000x128_S128x128_S2000x128_1_0_0_1_n_n none x w (constant S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (dot_S2000x128_S128x128_S2000x128_1_0_0_1_n_n.lhsIdx_val_of_single rfl (ix2 p q) _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (dot_S2000x128_S128x128_S2000x128_1_0_0_1_n_n.rhsIdx_val_of_single rfl (ix2 p q) _).trans hk
    | ⟨1, _⟩ => exact rhs_col _ _)
  rw [el, er]

/-- A column `[a, 1]` repeated across `b` columns reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores, at row `p` and column `q` of the block: the self-transformed entry plus the affine image of the
    aggregated row, scaled by the inverse square root of the row's degree, cut off below at zero. -/
theorem pay_apply (x0 : FVec Ideal S2000x128 .f32) (x3 : FVec Ideal S128x128 .f32) (x4 : FVec Ideal S1x128 .f32)
    (x2 : FVec Ideal S2000x1 .f32) (x1 : FVec Ideal S2000x128 .f32) (p : Fin 2000) (q : Fin 128) :
    k4_pay1 (F := Ideal) x0 x3 x4 x2 x1 (ix2 p q)
      = max (x1 (ix2 p q) + ((∑ k : Fin 128, x0 (ix2 p k) * x3 (ix2 k q)) + x4 (ix2 (0 : Fin 1) q))
          * Ideal.rsqrt (x2 (ix2 p (0 : Fin 1)))) (Ideal.ofBits .f32 0x00000000#32) := by
  unfold k4_pay1
  refine (maximumf_apply _ _ (ix2 p q)).trans ?_
  refine congrArg₂ max ?_ rfl
  refine (addf_apply _ _ (ix2 p q)).trans ?_
  refine congrArg₂ (· + ·) ?_ ?_
  · exact congrFun (shapeCast_self x1 _) (ix2 p q)
  refine (mulf_apply _ _ (ix2 p q)).trans ?_
  refine congrArg₂ (· * ·) ?_ ?_
  · refine (addf_apply _ _ (ix2 p q)).trans ?_
    refine congrArg₂ (· + ·) ?_ ?_
    · refine (dot_apply _ _ p q).trans ?_
      exact Finset.sum_congr rfl fun k _ =>
        congrArg (fun v : FVec Ideal S2000x128 .f32 => v (ix2 p k) * x3 (ix2 k q)) (shapeCast_self x0 _)
    · refine (broadcastTo_1b_ab_apply _ broadcasts_S1x128_S2000x128 p q).trans ?_
      exact congrFun (shapeCast_self x4 _) (ix2 (0 : Fin 1) q)
  · refine (broadcastTo_a1_ab_apply _ broadcasts_S2000x1_S2000x128 p q).trans ?_
    exact congrArg Ideal.rsqrt (congrFun (shapeCast_self x2 _) (ix2 p (0 : Fin 1)))

/-- The printed index maps over the grid: the aggregated rows, the self-transformed rows, the degree column and the output
    move block by block with the grid point; the weight matrix and the bias row are taken whole at every point. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

theorem t_lt (t : Fin cfg4.N) : t.val < 50 := N_4 ▸ t.isLt

/-- Block `t` of the aggregated rows: row `p` of the block is row `2000 t + p` of the table. -/
theorem agg_read (c : Dev nD) (t : Fin cfg4.N) (p : Fin 2000) (k : Fin 128) :
    iblk4 V c 0 t (ix2 p k)
      = V c (Pipeline.arrRef spec4 0) (ix2 (⟨t.val * 2000 + p.val, by have := t_lt t; omega⟩ : Fin 100000) k) := by
  obtain ⟨e0, e1, -⟩ := idx_facts t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 2000 + 1 * p.val = t.val * 2000 + p.val; rw [e0]; omega
  | ⟨1, _⟩ => show win4_0.index t (1 : Fin 2) * 128 + 1 * k.val = k.val; rw [e1]; omega

/-- Block `t` of the self-transformed rows: row `p` of the block is row `2000 t + p` of the table. -/
theorem hs_read (c : Dev nD) (t : Fin cfg4.N) (p : Fin 2000) (k : Fin 128) :
    iblk4 V c 1 t (ix2 p k)
      = V c (Pipeline.arrRef spec4 1) (ix2 (⟨t.val * 2000 + p.val, by have := t_lt t; omega⟩ : Fin 100000) k) := by
  obtain ⟨-, -, e2, e3, -⟩ := idx_facts t
  show V c (Pipeline.arrRef spec4 1) (((cfg4.win 1).blk t).view.emb (ix2 p k)) = _
  refine congrArg (V c (Pipeline.arrRef spec4 1)) (funext fun a => Fin.ext ?_)
  match a with
  | ⟨0, _⟩ => show win4_1.index t (0 : Fin 2) * 2000 + 1 * p.val = t.val * 2000 + p.val; rw [e2]; omega
  | ⟨1, _⟩ => show win4_1.index t (1 : Fin 2) * 128 + 1 * k.val = k.val; rw [e3]; omega

/-- Block `t` of the degree column: entry `p` of the block is the degree of node `2000 t + p`. -/
theorem deg_read (c : Dev nD) (t : Fin cfg4.N) (p : Fin 2000) (z : Fin 1) :
    iblk4 V c 2 t (ix2 p z)
      = V c (Pipeline.arrRef spec4 2) (ix2 (⟨t.val * 2000 + p.val, by have := t_lt t; omega⟩ : Fin 100000) z) := by
  obtain ⟨-, -, -, -, e4, e5, -⟩ := idx_facts t
  show V c (Pipeline.arrRef spec4 2) (((cfg4.win 2).blk t).view.emb (ix2 p z)) = _
  refine congrArg (V c (Pipeline.arrRef spec4 2)) (funext fun a => Fin.ext ?_)
  match a with
  | ⟨0, _⟩ => show win4_2.index t (0 : Fin 2) * 2000 + 1 * p.val = t.val * 2000 + p.val; rw [e4]; omega
  | ⟨1, _⟩ => show win4_2.index t (1 : Fin 2) * 1 + 1 * z.val = z.val; rw [e5]; omega

/-- The weight matrix is taken whole at every point. -/
theorem weights_read (c : Dev nD) (t : Fin cfg4.N) (y : S128x128.Idx) :
    iblk4 V c 3 t y = V c (Pipeline.arrRef spec4 3) y := by
  obtain ⟨-, -, -, -, -, -, e6, e7, -⟩ := idx_facts t
  show V c (Pipeline.arrRef spec4 3) (((cfg4.win 3).blk t).view.emb y) = _
  refine congrArg (V c (Pipeline.arrRef spec4 3)) (funext fun a => Fin.ext ?_)
  match a with
  | ⟨0, _⟩ => show win4_3.index t (0 : Fin 2) * 128 + 1 * (y 0).val = (y 0).val; rw [e6]; omega
  | ⟨1, _⟩ => show win4_3.index t (1 : Fin 2) * 128 + 1 * (y 1).val = (y 1).val; rw [e7]; omega

/-- The bias row is taken whole at every point. -/
theorem bias_read (c : Dev nD) (t : Fin cfg4.N) (y : S1x128.Idx) :
    iblk4 V c 4 t y = V c (Pipeline.arrRef spec4 4) y := by
  obtain ⟨-, -, -, -, -, -, -, -, e8, e9, -⟩ := idx_facts t
  show V c (Pipeline.arrRef spec4 4) (((cfg4.win 4).blk t).view.emb y) = _
  refine congrArg (V c (Pipeline.arrRef spec4 4)) (funext fun a => Fin.ext ?_)
  match a with
  | ⟨0, _⟩ => show win4_4.index t (0 : Fin 2) * 1 + 1 * (y 0).val = (y 0).val; rw [e8]; omega
  | ⟨1, _⟩ => show win4_4.index t (1 : Fin 2) * 128 + 1 * (y 1).val = (y 1).val; rw [e9]; omega

/-- At a point: the body's stored value at row `p`, column `q` of block `tt` is `post` at row `2000 tt + p`, column `q`,
    whenever the loaded blocks are the rows `2000 tt …` of the three tables, the whole weights and the whole bias. -/
theorem point_eq (a0 a1 : FVec Ideal S100000x128 .f32) (a2 : FVec Ideal S100000x1 .f32) (a3 : FVec Ideal S128x128 .f32)
    (a4 : FVec Ideal S1x128 .f32)
    (x0 x1 : FVec Ideal S2000x128 .f32) (x2 : FVec Ideal S2000x1 .f32) (x3 : FVec Ideal S128x128 .f32)
    (x4 : FVec Ideal S1x128 .f32)
    (tt : Nat) (htt : tt < 50)
    (h0 : ∀ (p : Fin 2000) (k : Fin 128), x0 (ix2 p k) = a0 (ix2 (⟨tt * 2000 + p.val, by omega⟩ : Fin 100000) k))
    (h1 : ∀ (p : Fin 2000) (k : Fin 128), x1 (ix2 p k) = a1 (ix2 (⟨tt * 2000 + p.val, by omega⟩ : Fin 100000) k))
    (h2 : ∀ (p : Fin 2000) (z : Fin 1), x2 (ix2 p z) = a2 (ix2 (⟨tt * 2000 + p.val, by omega⟩ : Fin 100000) z))
    (h3 : ∀ y, x3 y = a3 y) (h4 : ∀ y, x4 y = a4 y)
    (p : Fin 2000) (q : Fin 128) (i : S100000x128.Idx) (hi0 : (i 0).val = tt * 2000 + p.val) (hi1 : (i 1).val = q.val) :
    k4_pay1 (F := Ideal) x0 x3 x4 x2 x1 (ix2 p q) = Spec.post a0 a1 a2 a3 a4 i := by
  rw [pay_apply]
  have er : rw2 i = (⟨tt * 2000 + p.val, by omega⟩ : Fin 100000) := Fin.ext hi0
  have ec : cl2 i = q := Fin.ext hi1
  have ei : a1 i = x1 (ix2 p q) := by
    rw [h1]
    exact congrArg a1 ((eq_ix2 i).trans (congrArg₂ ix2 er ec))
  unfold Spec.post
  rw [er, ec, ei, h4, h2]
  refine congrArg₂ max ?_ rfl
  refine congrArg₂ (· + ·) rfl ?_
  refine congrArg₂ (· * ·) ?_ rfl
  refine congrArg₂ (· + ·) ?_ rfl
  refine Finset.sum_congr rfl fun k _ => ?_
  rw [h0, h3]

/-- What point `t` writes back is block `t` of `post` of the arrays as the call finds them. -/
theorem flushed_eq (c : Dev nD) (t : Fin cfg4.N) :
    (dat4 V c).flushed 5 t = ((cfg4.win 5).blk t).view.read (Elt Ideal)
      (Spec.post (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V c).after 5 t) = _
  rw [after4_5]
  unfold out4_5
  rw [View.canon_unit_zero hz]
  simp only [View.ld_unit_zero (S := S2000x128) hz, View.ld_unit_zero (S := S128x128) hz, View.ld_unit_zero (S := S1x128) hz,
    View.ld_unit_zero (S := S2000x1) hz]
  obtain ⟨-, -, -, -, -, -, -, -, -, -, e10, e11⟩ := idx_facts t
  funext j
  obtain ⟨p, q, rfl⟩ : ∃ (p : Fin 2000) (q : Fin 128), j = ix2 p q := ⟨j 0, j 1, eq_ix2 j⟩
  refine point_eq _ _ _ _ _ _ _ _ _ _ t.val (t_lt t) (agg_read V c t) (hs_read V c t) (deg_read V c t)
    (weights_read V c t) (bias_read V c t) p q _ ?_ ?_
  · show win4_5.index t (0 : Fin 2) * 2000 + 1 * p.val = t.val * 2000 + p.val; rw [e10]; omega
  · show win4_5.index t (1 : Fin 2) * 128 + 1 * q.val = q.val; rw [e11]; omega

/-- An index of the result table is in point `t`'s block iff each coordinate is in the block's range on its axis. -/
theorem mem_blk (t : Fin cfg4.N) (i : S100000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v55).slice (win4_5.rect t)).set ↔ _
  rw [View.set_slice_whole, Rect.mem_set_unit]
  exact Iff.rfl

/-- Row `r` is written back by point `r / 2000`: the blocks tile the table. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : (i 0).val / 2000 < cfg4.N := by rw [show cfg4.N = 50 from N_4]; omega
  obtain ⟨-, -, -, -, -, -, -, -, -, -, e10, e11⟩ := idx_facts ⟨(i 0).val / 2000, hN⟩
  refine ⟨⟨(i 0).val / 2000, hN⟩, flush4_5 _, ?_⟩
  rw [mem_blk]
  intro a
  match a with
  | ⟨0, _⟩ =>
    show win4_5.index ⟨(i 0).val / 2000, hN⟩ (0 : Fin 2) * 2000 ≤ (i 0).val ∧ (i 0).val < win4_5.index ⟨(i 0).val / 2000, hN⟩ (0 : Fin 2) * 2000 + 2000
    rw [e10]; show (i 0).val / 2000 * 2000 ≤ (i 0).val ∧ (i 0).val < (i 0).val / 2000 * 2000 + 2000; omega
  | ⟨1, _⟩ =>
    show win4_5.index ⟨(i 0).val / 2000, hN⟩ (1 : Fin 2) * 128 ≤ (i 1).val ∧ (i 1).val < win4_5.index ⟨(i 0).val / 2000, hN⟩ (1 : Fin 2) * 128 + 128
    rw [e11]; omega

/-- THE ARRAY the second combining stage leaves: `post` of the arrays it was given. -/
theorem final (c : Dev nD) :
    (dat4 V c).arrAt 5 cfg4.N
      = Spec.post (V c (Pipeline.arrRef spec4 0)) (V c (Pipeline.arrRef spec4 1)) (V c (Pipeline.arrRef spec4 2))
          (V c (Pipeline.arrRef spec4 3)) (V c (Pipeline.arrRef spec4 4)) :=
  (dat4 V c).arrAt_eq_of_cover 5 _ (fun t _ => flushed_eq V c t) (cover)

end Cert.KernelIdeal.Region4

end
-- ==== Proof.Region5.lean ====
/-
  The last dense stage, `out = h · W_fc + b_fc`, as the pipelined call computes it: the node table is cut into 50
  blocks of 2000 rows, and block `t` of the result is the product of block `t` of the feature rows with the whole
  128 × 12 weight matrix, plus the bias row.  Row `r` of the table lies in block `r / 2000`, so the blocks written back
  tile the result, and the array the call leaves is `Spec.lin12` of the arrays it was given.
  (The product is taken in a narrower float format; on the extended reals a change of format is the identity.)
-/
import proofs.«171632_j15960098472701_1_alg».proof.Proof.Gen.KernelIdeal.Frame
import proofs.«171632_j15960098472701_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region5

open Idealize.ShloMosaic Idealize.ShloMosaic.TcCoe Idealize.ShloMosaic.ValueIdx Idealize.SL.Sem
open Cert.KernelIdeal Cert.KernelIdeal.Gen Cert.Spec
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem lhs_row (i : S2000x12.Idx) (r : dot_S2000x128_S128x12_S2000x12_1_0_0_1_n_n.contr.Idx) : (dot_S2000x128_S128x12_S2000x12_1_0_0_1_n_n.lhsIdx i r 0).val = (i 0).val := by
  unfold DotDims.lhsIdx
  rw [dif_neg (show ¬(0 : Fin S2000x128.rank) ∈ dot_S2000x128_S128x12_S2000x12_1_0_0_1_n_n.lhsBatch by decide), dif_pos (show (0 : Fin S2000x128.rank) ∈ dot_S2000x128_S128x12_S2000x12_1_0_0_1_n_n.lhsNonContracting by decide)]
  rfl
theorem rhs_col (i : S2000x12.Idx) (r : dot_S2000x128_S128x12_S2000x12_1_0_0_1_n_n.contr.Idx) : (dot_S2000x128_S128x12_S2000x12_1_0_0_1_n_n.rhsIdx i r 1).val = (i 1).val := by
  unfold DotDims.rhsIdx
  rw [dif_neg (show ¬(1 : Fin S128x12.rank) ∈ dot_S2000x128_S128x12_S2000x12_1_0_0_1_n_n.rhsBatch by decide), dif_pos (show (1 : Fin S128x12.rank) ∈ dot_S2000x128_S128x12_S2000x12_1_0_0_1_n_n.rhsNonContracting by decide)]
  rfl

/-- The block product at an entry: the sum over the 128 features. -/
theorem dot_apply (x : FVec Ideal S2000x128 .bf16) (w : FVec Ideal S128x12 .bf16) (p : Fin 2000) (q : Fin 12) :
    matmul dot_S2000x128_S128x12_S2000x12_1_0_0_1_n_n none x w (constant S2000x12 .f32 0x00000000#32) (ix2 p q)
      = ∑ k : Fin 128, x (ix2 p k) * w (ix2 k q) := by
  refine (Ideal.matmul_constant_zero_apply dot_S2000x128_S128x12_S2000x12_1_0_0_1_n_n none x w (ix2 p q)).trans ?_
  rw [← Equiv.sum_comp (ValueIdx.contrEquiv1 dot_S2000x128_S128x12_S2000x12_1_0_0_1_n_n 128 rfl rfl).symm]
  refine Finset.sum_congr rfl fun k _ => ?_
  have hk := ValueIdx.contrEquiv1_symm_val dot_S2000x128_S128x12_S2000x12_1_0_0_1_n_n 128 rfl rfl k
  have el : dot_S2000x128_S128x12_S2000x12_1_0_0_1_n_n.lhsIdx (ix2 p q) ((ValueIdx.contrEquiv1 dot_S2000x128_S128x12_S2000x12_1_0_0_1_n_n 128 rfl rfl).symm k) = ix2 p k := funext fun a => Fin.ext (by
    match a with
    | ⟨0, _⟩ => exact lhs_row _ _
    | ⟨1, _⟩ => exact (dot_S2000x128_S128x12_S2000x12_1_0_0_1_n_n.lhsIdx_val_of_single rfl (ix2 p q) _).trans hk)
  have er : dot_S2000x128_S128x12_S2000x12_1_0_0_1_n_n.rhsIdx (ix2 p q) ((ValueIdx.contrEquiv1 dot_S2000x128_S128x12_S2000x12_1_0_0_1_n_n 128 rfl rfl).symm k) = ix2 k q := funext fun a => Fin.ext (by
    match a with
    | ⟨0, _⟩ => exact (dot_S2000x128_S128x12_S2000x12_1_0_0_1_n_n.rhsIdx_val_of_single rfl (ix2 p q) _).trans hk
    | ⟨1, _⟩ => exact rhs_col _ _)
  rw [el, er]

/-- What the body stores, at row `p` and column `q` of the block. -/
theorem pay_apply (x0 : FVec Ideal S2000x128 .f32) (x1 : FVec Ideal S128x12 .f32) (x2 : FVec Ideal S1x12 .f32)
    (p : Fin 2000) (q : Fin 12) :
    k5_pay1 (F := Ideal) x0 x1 x2 (ix2 p q) = (∑ k : Fin 128, x0 (ix2 p k) * x1 (ix2 k q)) + x2 (ix2 (0 : Fin 1) q) := by
  unfold k5_pay1
  refine (addf_apply _ _ (ix2 p q)).trans ?_
  refine congrArg₂ (· + ·) ?_ ?_
  · refine (dot_apply _ _ p q).trans ?_
    rw [shapeCast_self]
    rfl
  · refine (broadcastTo_1b_ab_apply _ broadcasts_S1x12_S2000x12 p q).trans ?_
    rw [shapeCast_self]

/-- The printed index maps over the grid: the input rows and the output move block by block with the grid point; the
    weight matrix and the bias row are taken whole at every point. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

theorem t_lt (t : Fin cfg5.N) : t.val < 50 := N_5 ▸ t.isLt

/-- Block `t` of the input rows: row `p` of the block is row `2000 t + p` of the table. -/
theorem rows_read (c : Dev nD) (t : Fin cfg5.N) (p : Fin 2000) (k : Fin 128) :
    iblk5 V c 0 t (ix2 p k)
      = V c (Pipeline.arrRef spec5 0) (ix2 (⟨t.val * 2000 + p.val, by have := t_lt t; omega⟩ : Fin 100000) k) := by
  obtain ⟨e0, e1, -⟩ := idx_facts t
  show V c (Pipeline.arrRef spec5 0) (((cfg5.win 0).blk t).view.emb (ix2 p k)) = _
  refine congrArg (V c (Pipeline.arrRef spec5 0)) (funext fun a => Fin.ext ?_)
  match a with
  | ⟨0, _⟩ => show win5_0.index t (0 : Fin 2) * 2000 + 1 * p.val = t.val * 2000 + p.val; rw [e0]; omega
  | ⟨1, _⟩ => show win5_0.index t (1 : Fin 2) * 128 + 1 * k.val = k.val; rw [e1]; omega

/-- The weight matrix is taken whole at every point. -/
theorem weights_read (c : Dev nD) (t : Fin cfg5.N) (y : S128x12.Idx) :
    iblk5 V c 1 t y = V c (Pipeline.arrRef spec5 1) y := by
  obtain ⟨-, -, e2, e3, -⟩ := idx_facts t
  show V c (Pipeline.arrRef spec5 1) (((cfg5.win 1).blk t).view.emb y) = _
  refine congrArg (V c (Pipeline.arrRef spec5 1)) (funext fun a => Fin.ext ?_)
  match a with
  | ⟨0, _⟩ => show win5_1.index t (0 : Fin 2) * 128 + 1 * (y 0).val = (y 0).val; rw [e2]; omega
  | ⟨1, _⟩ => show win5_1.index t (1 : Fin 2) * 12 + 1 * (y 1).val = (y 1).val; rw [e3]; omega

/-- The bias row is taken whole at every point. -/
theorem bias_read (c : Dev nD) (t : Fin cfg5.N) (y : S1x12.Idx) :
    iblk5 V c 2 t y = V c (Pipeline.arrRef spec5 2) y := by
  obtain ⟨-, -, -, -, e4, e5, -⟩ := idx_facts t
  show V c (Pipeline.arrRef spec5 2) (((cfg5.win 2).blk t).view.emb y) = _
  refine congrArg (V c (Pipeline.arrRef spec5 2)) (funext fun a => Fin.ext ?_)
  match a with
  | ⟨0, _⟩ => show win5_2.index t (0 : Fin 2) * 1 + 1 * (y 0).val = (y 0).val; rw [e4]; omega
  | ⟨1, _⟩ => show win5_2.index t (1 : Fin 2) * 12 + 1 * (y 1).val = (y 1).val; rw [e5]; omega

/-- At a point: the body's stored value at row `p`, column `q` of block `tt` is `lin12` at row `2000 tt + p`, column `q`,
    whenever the loaded blocks are the rows `2000 tt …` of the table, the whole weights and the whole bias. -/
theorem point_eq (a0 : FVec Ideal S100000x128 .f32) (a1 : FVec Ideal S128x12 .f32) (a2 : FVec Ideal S1x12 .f32)
    (x0 : FVec Ideal S2000x128 .f32) (x1 : FVec Ideal S128x12 .f32) (x2 : FVec Ideal S1x12 .f32)
    (tt : Nat) (htt : tt < 50)
    (h0 : ∀ (p : Fin 2000) (k : Fin 128), x0 (ix2 p k) = a0 (ix2 (⟨tt * 2000 + p.val, by omega⟩ : Fin 100000) k))
    (h1 : ∀ y, x1 y = a1 y) (h2 : ∀ y, x2 y = a2 y)
    (p : Fin 2000) (q : Fin 12) (i : S100000x12.Idx) (hi0 : (i 0).val = tt * 2000 + p.val) (hi1 : (i 1).val = q.val) :
    k5_pay1 (F := Ideal) x0 x1 x2 (ix2 p q) = lin12 a0 a1 a2 i := by
  rw [pay_apply]
  have er : rw2 i = (⟨tt * 2000 + p.val, by omega⟩ : Fin 100000) := Fin.ext hi0
  have ec : cl2 i = q := Fin.ext hi1
  unfold lin12
  rw [er, ec, h2]
  refine congrArg (· + a2 (ix2 (0 : Fin 1) q)) (Finset.sum_congr rfl fun k _ => ?_)
  rw [h0, h1]

/-- What point `t` writes back is block `t` of `lin12` of the arrays as the call finds them. -/
theorem flushed_eq (c : Dev nD) (t : Fin cfg5.N) :
    (dat5 V c).flushed 3 t = ((cfg5.win 3).blk t).view.read (Elt Ideal)
      (lin12 (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz]
  simp only [View.ld_unit_zero (S := S2000x128) hz, View.ld_unit_zero (S := S128x12) hz, View.ld_unit_zero (S := S1x12) hz]
  obtain ⟨-, -, -, -, -, -, e6, e7⟩ := idx_facts t
  funext j
  obtain ⟨p, q, rfl⟩ : ∃ (p : Fin 2000) (q : Fin 12), j = ix2 p q := ⟨j 0, j 1, eq_ix2 j⟩
  refine point_eq _ _ _ _ _ _ t.val (t_lt t) (rows_read V c t) (weights_read V c t) (bias_read V c t) p q _ ?_ ?_
  · show win5_3.index t (0 : Fin 2) * 2000 + 1 * p.val = t.val * 2000 + p.val; rw [e6]; omega
  · show win5_3.index t (1 : Fin 2) * 12 + 1 * q.val = q.val; rw [e7]; omega

/-- An index of the result table is in point `t`'s block iff each coordinate is in the block's range on its axis. -/
theorem mem_blk (t : Fin cfg5.N) (i : S100000x12.Idx) :
    i ∈ ((cfg5.win 3).blk t).view.set ↔ ∀ a : Fin 2, win5_3.index t a * S2000x12.size a ≤ (i a).val ∧ (i a).val < win5_3.index t a * S2000x12.size a + S2000x12.size a := by
  show i ∈ ((View.whole main_v57).slice (win5_3.rect t)).set ↔ _
  rw [View.set_slice_whole, Rect.mem_set_unit]
  exact Iff.rfl

/-- Row `r` is written back by point `r / 2000`: the blocks tile the table. -/
theorem cover (i : S100000x12.Idx) :
    ∃ t : Fin cfg5.N, (cfg5.win 3).flush t = true ∧ i ∈ ((cfg5.win 3).blk t).view.set := by
  have hi0 : (i 0).val < 100000 := (i 0).isLt
  have hi1 : (i 1).val < 12 := (i 1).isLt
  have hN : (i 0).val / 2000 < cfg5.N := by rw [show cfg5.N = 50 from N_5]; omega
  obtain ⟨-, -, -, -, -, -, e6, e7⟩ := idx_facts ⟨(i 0).val / 2000, hN⟩
  refine ⟨⟨(i 0).val / 2000, hN⟩, flush5_3 _, ?_⟩
  rw [mem_blk]
  intro a
  match a with
  | ⟨0, _⟩ =>
    show win5_3.index ⟨(i 0).val / 2000, hN⟩ (0 : Fin 2) * 2000 ≤ (i 0).val ∧ (i 0).val < win5_3.index ⟨(i 0).val / 2000, hN⟩ (0 : Fin 2) * 2000 + 2000
    rw [e6]; show (i 0).val / 2000 * 2000 ≤ (i 0).val ∧ (i 0).val < (i 0).val / 2000 * 2000 + 2000; omega
  | ⟨1, _⟩ =>
    show win5_3.index ⟨(i 0).val / 2000, hN⟩ (1 : Fin 2) * 128 ≤ (i 1).val ∧ (i 1).val < win5_3.index ⟨(i 0).val / 2000, hN⟩ (1 : Fin 2) * 12 + 12
    rw [e7]; omega

/-- THE ARRAY the last dense stage leaves: `lin12` of the arrays it was given. -/
theorem final (c : Dev nD) :
    (dat5 V c).arrAt 3 cfg5.N
      = lin12 (V c (Pipeline.arrRef spec5 0)) (V c (Pipeline.arrRef spec5 1)) (V c (Pipeline.arrRef spec5 2)) :=
  (dat5 V c).arrAt_eq_of_cover 3 _ (fun t _ => flushed_eq V c t) (cover)

end Cert.KernelIdeal.Region5

end
-- ==== Proof.KKeep.lean ====
/-
  Buffers that stretches of host operations and pipelined calls leave unchanged.  A stretch of host operations writes
  only its own result buffers, and a pipelined call replaces only its own arrays; so a buffer that is neither holds
  after the stretch or the call what it held before.  Chained over consecutive boundaries: the out-degree vector,
  once computed, is unchanged up to the boundaries where it is reshaped into a column; likewise the in-degree vector;
  and each call's result table is unchanged by the host stretch that follows the call.
-/
import proofs.«171632_j15960098472701_1_alg».proof.Proof.Gen.KernelIdeal.Frame
import proofs.«171632_j15960098472701_1_alg».proof.Proof.Chain
import Idealize.ShloMosaic.Lib.StableHlo.Run

set_option maxRecDepth 16384

noncomputable section

namespace Cert.KernelIdeal.KKeep

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

/-- A stretch of host operations leaves a buffer none of them writes as it was: the buffer differs from every
    operation's result buffer. -/
macro "kept_by " H:ident : tactic => `(tactic|
  exact StableHlo.after_of_forall_not_mem _ _ (List.forall_iff_forall_mem.mp (by
    simp only [$H:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## One boundary at a time: the two degree vectors -/

theorem keep3_v9 : W3 m ρ c (Proc.devRef .tc main_v9) = W2 m ρ c (Proc.devRef .tc main_v9) := by
  kept_by hostOps0_2
theorem keep4_v9 : W4 m ρ c (Proc.devRef .tc main_v9) = W3 m ρ c (Proc.devRef .tc main_v9) := by
  kept_by hostOps0_3
theorem keep5_v9 : W5 m ρ c (Proc.devRef .tc main_v9) = W4 m ρ c (Proc.devRef .tc main_v9) := by
  kept_by hostOps0_4
theorem keep6_v9 : W6 m ρ c (Proc.devRef .tc main_v9) = W5 m ρ c (Proc.devRef .tc main_v9) :=
  W6_of_ne m ρ c main_v9 (by decide)
theorem keep7_v9 : W7 m ρ c (Proc.devRef .tc main_v9) = W6 m ρ c (Proc.devRef .tc main_v9) := by
  kept_by hostOps1
theorem keep8_v9 : W8 m ρ c (Proc.devRef .tc main_v9) = W7 m ρ c (Proc.devRef .tc main_v9) :=
  W8_of_ne m ρ c main_v9 (by decide)
theorem keep9_v9 : W9 m ρ c (Proc.devRef .tc main_v9) = W8 m ρ c (Proc.devRef .tc main_v9) := by
  kept_by hostOps2
theorem keep10_v9 : W10 m ρ c (Proc.devRef .tc main_v9) = W9 m ρ c (Proc.devRef .tc main_v9) :=
  W10_of_ne m ρ c main_v9 (by decide)
theorem keep5_v19 : W5 m ρ c (Proc.devRef .tc main_v19) = W4 m ρ c (Proc.devRef .tc main_v19) := by
  kept_by hostOps0_4
theorem keep6_v19 : W6 m ρ c (Proc.devRef .tc main_v19) = W5 m ρ c (Proc.devRef .tc main_v19) :=
  W6_of_ne m ρ c main_v19 (by decide)
theorem keep7_v19 : W7 m ρ c (Proc.devRef .tc main_v19) = W6 m ρ c (Proc.devRef .tc main_v19) := by
  kept_by hostOps1
theorem keep8_v19 : W8 m ρ c (Proc.devRef .tc main_v19) = W7 m ρ c (Proc.devRef .tc main_v19) :=
  W8_of_ne m ρ c main_v19 (by decide)
theorem keep9_v19 : W9 m ρ c (Proc.devRef .tc main_v19) = W8 m ρ c (Proc.devRef .tc main_v19) := by
  kept_by hostOps2
theorem keep10_v19 : W10 m ρ c (Proc.devRef .tc main_v19) = W9 m ρ c (Proc.devRef .tc main_v19) :=
  W10_of_ne m ρ c main_v19 (by decide)
theorem keep11_v19 : W11 m ρ c (Proc.devRef .tc main_v19) = W10 m ρ c (Proc.devRef .tc main_v19) := by
  kept_by hostOps3
theorem keep12_v19 : W12 m ρ c (Proc.devRef .tc main_v19) = W11 m ρ c (Proc.devRef .tc main_v19) :=
  W12_of_ne m ρ c main_v19 (by decide)

/-! ## One boundary at a time: each call's result table across the stretch that follows it -/

/-- The first stage's table across the stretch that reshapes the out-degree vector. -/
theorem h0_at7 : W7 m ρ c (Proc.devRef .tc main_v21) = W6 m ρ c (Proc.devRef .tc main_v21) := by
  kept_by hostOps1
/-- The first layer's self term across the stretch that aggregates over the edges. -/
theorem hs1_at9 : W9 m ρ c (Proc.devRef .tc main_v23_0) = W8 m ρ c (Proc.devRef .tc main_v23_0) := by
  kept_by hostOps2
/-- The first layer's output across the stretch that reshapes the out-degree vector. -/
theorem h1_at11 : W11 m ρ c (Proc.devRef .tc main_v38) = W10 m ρ c (Proc.devRef .tc main_v38) := by
  kept_by hostOps3
/-- The second layer's self term across the stretch that aggregates over the edges. -/
theorem hs2_at13 : W13 m ρ c (Proc.devRef .tc main_v40_0) = W12 m ρ c (Proc.devRef .tc main_v40_0) := by
  kept_by hostOps4
/-- The second layer's output across the stretch that reshapes the last bias. -/
theorem h2_at15 : W15 m ρ c (Proc.devRef .tc main_v55) = W14 m ρ c (Proc.devRef .tc main_v55) := by
  kept_by hostOps5

/-! ## The degree vectors, chained -/

/-- The out-degree vector after the first call is as the stretch that computes it left it. -/
theorem outdeg_at6 : W6 m ρ c (Proc.devRef .tc main_v9) = W2 m ρ c (Proc.devRef .tc main_v9) :=
  (keep6_v9 m ρ c).trans ((keep5_v9 m ρ c).trans ((keep4_v9 m ρ c).trans (keep3_v9 m ρ c)))

/-- The out-degree vector after the third call is as the stretch that computes it left it. -/
theorem outdeg_at10 : W10 m ρ c (Proc.devRef .tc main_v9) = W2 m ρ c (Proc.devRef .tc main_v9) :=
  (keep10_v9 m ρ c).trans ((keep9_v9 m ρ c).trans ((keep8_v9 m ρ c).trans ((keep7_v9 m ρ c).trans (outdeg_at6 m ρ c))))

/-- The in-degree vector after the second call is as the stretch that computes it left it. -/
theorem indeg_at8 : W8 m ρ c (Proc.devRef .tc main_v19) = W4 m ρ c (Proc.devRef .tc main_v19) :=
  (keep8_v19 m ρ c).trans ((keep7_v19 m ρ c).trans ((keep6_v19 m ρ c).trans (keep5_v19 m ρ c)))

/-- The in-degree vector after the fourth call is as the stretch that computes it left it. -/
theorem indeg_at12 : W12 m ρ c (Proc.devRef .tc main_v19) = W4 m ρ c (Proc.devRef .tc main_v19) :=
  (keep12_v19 m ρ c).trans ((keep11_v19 m ρ c).trans ((keep10_v19 m ρ c).trans ((keep9_v19 m ρ c).trans (indeg_at8 m ρ c))))

end Cert.KernelIdeal.KKeep

end
-- ==== Proof.KHost.lean ====
/-
  What each stretch of host operations between two pipelined calls writes, as a function of the buffers it reads.
  A degree vector is the scatter-add of ones over the (wrapped) edge end points, then `max 1`; a column or a row is
  the same numbers under a change of shape; a layer's aggregate is gather, multiply by the edge weight, scatter-add.
  Each is the fold of the stretch's operations, one at a time: an operation's result buffer holds its function of its
  operand buffers, every other buffer what it held.
-/
import proofs.«171632_j15960098472701_1_alg».proof.Proof.Gen.KernelIdeal.Frame
import proofs.«171632_j15960098472701_1_alg».proof.Proof.Chain
import Idealize.ShloMosaic.Lib.StableHlo.Run

set_option maxRecDepth 16384

noncomputable section

namespace Cert.KernelIdeal.KHost

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

/-! ## The two degree vectors -/

/-- After the stretch that counts: the scatter-add of ones over the wrapped source end points. -/
theorem w1_v8 : W1 m ρ c (Proc.devRef .tc main_v8)
    = Host.scatterAdd (F := Ideal) scatter_S100000_S1600000x1_S1600000_n_0_0_1
        (broadcastInDim S100000 ![] bcast_S_S100000 (constant (F := Ideal) S_ .f32 0x00000000#32))
        (wrapped (W0 m ρ c (Proc.devRef .tc main_arg1)))
        (broadcastInDim S1600000 ![] bcast_S_S1600000 (constant (F := Ideal) S_ .f32 0x3F800000#32)) := by
  show StableHlo.after hostOps0 (W0 m ρ c) (Proc.devRef .tc main_v8) = _
  generalize W0 m ρ c = F
  after_results
  unfold wrapped
  rfl

/-- After the same stretch: the constant one. -/
theorem w1_cst_2 : W1 m ρ c (Proc.devRef .tc main_cst_2) = constant (F := Ideal) S_ .f32 0x3F800000#32 := by
  show StableHlo.after hostOps0 (W0 m ρ c) (Proc.devRef .tc main_cst_2) = _
  generalize W0 m ρ c = F
  after_results

/-- The `max 1` stretch over any contents: its result is the larger of the repeated constant and the count. -/
theorem clip0 (G : Valuation τ sig (Elt Ideal)) (k : FVec Ideal S_ .f32) (s : FVec Ideal S100000 .f32)
    (hk : G (Proc.devRef .tc main_cst_2) = k) (hs : G (Proc.devRef .tc main_v8) = s) :
    StableHlo.after hostOps0_1 G (Proc.devRef .tc main_v9)
      = maximumf (F := Ideal) (φ := .f32) (broadcastInDim S100000 ![] bcast_S_S100000 (id k)) s := by
  subst hk hs
  after_results
  rfl

/-- The out-degree vector: the count, at least one. -/
theorem outdeg : W2 m ρ c (Proc.devRef .tc main_v9) = degree (m ((c : Thread nD τ).loc main_arg1)) :=
  clip0 (W1 m ρ c) _ _ (w1_cst_2 m ρ c) (w1_v8 m ρ c)

/-- After the stretch that counts: the scatter-add of ones over the wrapped target end points. -/
theorem w3_v18 : W3 m ρ c (Proc.devRef .tc main_v18)
    = Host.scatterAdd (F := Ideal) scatter_S100000_S1600000x1_S1600000_n_0_0_1
        (broadcastInDim S100000 ![] bcast_S_S100000 (constant (F := Ideal) S_ .f32 0x00000000#32))
        (wrapped (W2 m ρ c (Proc.devRef .tc main_arg2)))
        (broadcastInDim S1600000 ![] bcast_S_S1600000 (constant (F := Ideal) S_ .f32 0x3F800000#32)) := by
  show StableHlo.after hostOps0_2 (W2 m ρ c) (Proc.devRef .tc main_v18) = _
  generalize W2 m ρ c = F
  after_results
  unfold wrapped
  rfl

/-- After the same stretch: the constant one. -/
theorem w3_cst_7 : W3 m ρ c (Proc.devRef .tc main_cst_7) = constant (F := Ideal) S_ .f32 0x3F800000#32 := by
  show StableHlo.after hostOps0_2 (W2 m ρ c) (Proc.devRef .tc main_cst_7) = _
  generalize W2 m ρ c = F
  after_results

/-- The `max 1` stretch over any contents: its result is the larger of the repeated constant and the count. -/
theorem clip1 (G : Valuation τ sig (Elt Ideal)) (k : FVec Ideal S_ .f32) (s : FVec Ideal S100000 .f32)
    (hk : G (Proc.devRef .tc main_cst_7) = k) (hs : G (Proc.devRef .tc main_v18) = s) :
    StableHlo.after hostOps0_3 G (Proc.devRef .tc main_v19)
      = maximumf (F := Ideal) (φ := .f32) (broadcastInDim S100000 ![] bcast_S_S100000 (id k)) s := by
  subst hk hs
  after_results
  rfl

/-- The in-degree vector: the count, at least one. -/
theorem indeg : W4 m ρ c (Proc.devRef .tc main_v19) = degree (W2 m ρ c (Proc.devRef .tc main_arg2)) :=
  clip1 (W3 m ρ c) _ _ (w3_cst_7 m ρ c) (w3_v18 m ρ c)

/-! ## Changes of shape -/

/-- The embedding's bias as a one-row table. -/
theorem bias0 : W5 m ρ c (Proc.devRef .tc main_v20) = row128 (W4 m ρ c (Proc.devRef .tc main_arg7)) := by
  show StableHlo.after hostOps0_4 (W4 m ρ c) (Proc.devRef .tc main_v20) = _
  generalize W4 m ρ c = F
  after_results
  rfl

/-- The out-degree vector as a one-column table, for the first layer. -/
theorem col1 : W7 m ρ c (Proc.devRef .tc main_v22) = column (W6 m ρ c (Proc.devRef .tc main_v9)) := by
  show StableHlo.after hostOps1 (W6 m ρ c) (Proc.devRef .tc main_v22) = _
  generalize W6 m ρ c = F
  after_results
  rfl

/-- The in-degree vector as a one-column table, for the first layer. -/
theorem col2 : W9 m ρ c (Proc.devRef .tc main_v36) = column (W8 m ρ c (Proc.devRef .tc main_v19)) := by
  show StableHlo.after hostOps2 (W8 m ρ c) (Proc.devRef .tc main_v36) = _
  generalize W8 m ρ c = F
  after_results
  rfl

/-- The first layer's bias as a one-row table. -/
theorem bias2 : W9 m ρ c (Proc.devRef .tc main_v37) = row128 (W8 m ρ c (Proc.devRef .tc main_arg10)) := by
  show StableHlo.after hostOps2 (W8 m ρ c) (Proc.devRef .tc main_v37) = _
  generalize W8 m ρ c = F
  after_results
  rfl

/-- The out-degree vector as a one-column table, for the second layer. -/
theorem col3 : W11 m ρ c (Proc.devRef .tc main_v39) = column (W10 m ρ c (Proc.devRef .tc main_v9)) := by
  show StableHlo.after hostOps3 (W10 m ρ c) (Proc.devRef .tc main_v39) = _
  generalize W10 m ρ c = F
  after_results
  rfl

/-- The in-degree vector as a one-column table, for the second layer. -/
theorem col4 : W13 m ρ c (Proc.devRef .tc main_v53) = column (W12 m ρ c (Proc.devRef .tc main_v19)) := by
  show StableHlo.after hostOps4 (W12 m ρ c) (Proc.devRef .tc main_v53) = _
  generalize W12 m ρ c = F
  after_results
  rfl

/-- The second layer's bias as a one-row table. -/
theorem bias4 : W13 m ρ c (Proc.devRef .tc main_v54) = row128 (W12 m ρ c (Proc.devRef .tc main_arg13)) := by
  show StableHlo.after hostOps4 (W12 m ρ c) (Proc.devRef .tc main_v54) = _
  generalize W12 m ρ c = F
  after_results
  rfl

/-- The output bias as a one-row table. -/
theorem bias5 : W15 m ρ c (Proc.devRef .tc main_v56) = row12 (W14 m ρ c (Proc.devRef .tc main_arg15)) := by
  show StableHlo.after hostOps5 (W14 m ρ c) (Proc.devRef .tc main_v56) = _
  generalize W14 m ρ c = F
  after_results
  rfl

/-! ## The two aggregates -/

set_option maxHeartbeats 1000000 in
/-- The first layer's aggregate: gather the scaled rows at the wrapped sources, multiply by the edge weights, scatter-add at the targets. -/
theorem agg1 : W9 m ρ c (Proc.devRef .tc main_v35)
    = aggregate (W8 m ρ c (Proc.devRef .tc main_v23_1)) (W8 m ρ c (Proc.devRef .tc main_arg1))
        (W8 m ρ c (Proc.devRef .tc main_arg2)) (W8 m ρ c (Proc.devRef .tc main_arg3)) := by
  show StableHlo.after hostOps2 (W8 m ρ c) (Proc.devRef .tc main_v35) = _
  generalize W8 m ρ c = F
  after_results_simp
  unfold aggregate wrapped
  rfl

set_option maxHeartbeats 1000000 in
/-- The second layer's aggregate, likewise. -/
theorem agg2 : W13 m ρ c (Proc.devRef .tc main_v52)
    = aggregate (W12 m ρ c (Proc.devRef .tc main_v40_1)) (W12 m ρ c (Proc.devRef .tc main_arg1))
        (W12 m ρ c (Proc.devRef .tc main_arg2)) (W12 m ρ c (Proc.devRef .tc main_arg3)) := by
  show StableHlo.after hostOps4 (W12 m ρ c) (Proc.devRef .tc main_v52) = _
  generalize W12 m ρ c = F
  after_results_simp
  unfold aggregate wrapped
  rfl

end Cert.KernelIdeal.KHost

end
-- ==== Proof.KFold.lean ====
/-
  The result array of the whole program, read back through its run.  Between two pipelined calls the buffers are what
  the host operations in between leave; a call replaces its output arrays by what its blocks write back and leaves
  every other buffer alone.  Walking from the result back to the launch memory: a buffer that a stretch or a call does
  not write holds what it held before it (the argument arrays are written by nothing; a degree vector by nothing after
  the stretch that computes it), a buffer a stretch writes holds that operation's value of its operands, and a call's
  output array holds the `Spec` function of its input arrays (the six stage lemmas).  Composed, the result array is
  `Spec.network` of the argument arrays.
-/
import proofs.«171632_j15960098472701_1_alg».proof.Proof.Gen.KernelIdeal.Frame
import proofs.«171632_j15960098472701_1_alg».proof.Proof.Chain
import proofs.«171632_j15960098472701_1_alg».proof.Proof.Region0
import proofs.«171632_j15960098472701_1_alg».proof.Proof.Region1
import proofs.«171632_j15960098472701_1_alg».proof.Proof.Region2
import proofs.«171632_j15960098472701_1_alg».proof.Proof.Region3
import proofs.«171632_j15960098472701_1_alg».proof.Proof.Region4
import proofs.«171632_j15960098472701_1_alg».proof.Proof.Region5
import proofs.«171632_j15960098472701_1_alg».proof.Proof.KKeep
import proofs.«171632_j15960098472701_1_alg».proof.Proof.KHost
import Idealize.ShloMosaic.Lib.StableHlo.Run

set_option maxRecDepth 16384

noncomputable section

namespace Cert.KernelIdeal.KFold

open Idealize.ShloMosaic Idealize.ShloMosaic.TcCoe Idealize.ShloMosaic.StableHlo Idealize.SL.Sem
open Cert.KernelIdeal Cert.KernelIdeal.Gen Cert.Spec

variable (m : (ℓ : Loc nD τ sig) → Buf (Elt Ideal) ℓ) (ρ : Dev nD → PrngReg) (c : Dev nD)

/-- A stretch of host operations leaves a buffer none of them writes as it was. -/
macro "unwritten " H:ident : tactic => `(tactic|
  exact StableHlo.after_of_forall_not_mem _ _ (List.forall_iff_forall_mem.mp (by
    simp only [$H:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The argument arrays at every boundary -/

/-- The argument arrays the program reads. -/
def args : List (Ref sig .tc) :=
  [main_arg0, main_arg1, main_arg2, main_arg3, main_arg6, main_arg7, main_arg8, main_arg9,
   main_arg10, main_arg11, main_arg12, main_arg13, main_arg14, main_arg15]

/-- No host operation writes an argument array. -/
macro "unwritten_arg " H:ident : tactic => `(tactic|
  exact StableHlo.after_of_forall_not_mem _ _ (List.forall_iff_forall_mem.mp (by
    simp only [$H:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (fun e => by subst e; exact absurd ‹_ ∈ args› (by decide)))))

/-- A pipelined call leaves an argument array as it was: it is either none of the call's arrays or one of its inputs. -/
macro "through_call " Wof:ident Warr:ident dat:ident Aeq:ident V:ident : tactic => `(tactic| first
  | exact $Wof m ρ c _ (by decide)
  | exact ($Warr m ρ c 0).trans ((($dat ($V m ρ) c).arrAt_in 0 rfl _).trans ($Aeq ($V m ρ) c 0))
  | exact ($Warr m ρ c 1).trans ((($dat ($V m ρ) c).arrAt_in 1 rfl _).trans ($Aeq ($V m ρ) c 1))
  | exact ($Warr m ρ c 2).trans ((($dat ($V m ρ) c).arrAt_in 2 rfl _).trans ($Aeq ($V m ρ) c 2))
  | exact ($Warr m ρ c 3).trans ((($dat ($V m ρ) c).arrAt_in 3 rfl _).trans ($Aeq ($V m ρ) c 3))
  | exact ($Warr m ρ c 4).trans ((($dat ($V m ρ) c).arrAt_in 4 rfl _).trans ($Aeq ($V m ρ) c 4)))

macro "each_arg " hb:ident : tactic => `(tactic| (
  simp only [args, List.mem_cons, List.mem_nil_iff, or_false] at $hb:ident
  rcases $hb:ident with h | h | h | h | h | h | h | h | h | h | h | h | h | h <;> subst h))

theorem arg1 (b : Ref sig .tc) (hb : b ∈ args) : W1 m ρ c (Proc.devRef .tc b) = m ((c : Thread nD τ).loc b) := by
  show StableHlo.after hostOps0 (W0 m ρ c) (Proc.devRef .tc b) = W0 m ρ c (Proc.devRef .tc b)
  unwritten_arg hostOps0
theorem arg2 (b : Ref sig .tc) (hb : b ∈ args) : W2 m ρ c (Proc.devRef .tc b) = m ((c : Thread nD τ).loc b) := by
  refine Eq.trans ?_ (arg1 m ρ c b hb); unwritten_arg hostOps0_1
theorem arg3 (b : Ref sig .tc) (hb : b ∈ args) : W3 m ρ c (Proc.devRef .tc b) = m ((c : Thread nD τ).loc b) := by
  refine Eq.trans ?_ (arg2 m ρ c b hb); unwritten_arg hostOps0_2
theorem arg4 (b : Ref sig .tc) (hb : b ∈ args) : W4 m ρ c (Proc.devRef .tc b) = m ((c : Thread nD τ).loc b) := by
  refine Eq.trans ?_ (arg3 m ρ c b hb); unwritten_arg hostOps0_3
theorem arg5 (b : Ref sig .tc) (hb : b ∈ args) : W5 m ρ c (Proc.devRef .tc b) = m ((c : Thread nD τ).loc b) := by
  refine Eq.trans ?_ (arg4 m ρ c b hb); unwritten_arg hostOps0_4
theorem arg6 (b : Ref sig .tc) (hb : b ∈ args) : W6 m ρ c (Proc.devRef .tc b) = m ((c : Thread nD τ).loc b) := by
  refine Eq.trans ?_ (arg5 m ρ c b hb); each_arg hb <;> through_call W6_of_ne W6_arr dat0 A_eq0 V5
theorem arg7 (b : Ref sig .tc) (hb : b ∈ args) : W7 m ρ c (Proc.devRef .tc b) = m ((c : Thread nD τ).loc b) := by
  refine Eq.trans ?_ (arg6 m ρ c b hb); unwritten_arg hostOps1
theorem arg8 (b : Ref sig .tc) (hb : b ∈ args) : W8 m ρ c (Proc.devRef .tc b) = m ((c : Thread nD τ).loc b) := by
  refine Eq.trans ?_ (arg7 m ρ c b hb); each_arg hb <;> through_call W8_of_ne W8_arr dat1 A_eq1 V7
theorem arg9 (b : Ref sig .tc) (hb : b ∈ args) : W9 m ρ c (Proc.devRef .tc b) = m ((c : Thread nD τ).loc b) := by
  refine Eq.trans ?_ (arg8 m ρ c b hb); unwritten_arg hostOps2
theorem arg10 (b : Ref sig .tc) (hb : b ∈ args) : W10 m ρ c (Proc.devRef .tc b) = m ((c : Thread nD τ).loc b) := by
  refine Eq.trans ?_ (arg9 m ρ c b hb); each_arg hb <;> through_call W10_of_ne W10_arr dat2 A_eq2 V9
theorem arg11 (b : Ref sig .tc) (hb : b ∈ args) : W11 m ρ c (Proc.devRef .tc b) = m ((c : Thread nD τ).loc b) := by
  refine Eq.trans ?_ (arg10 m ρ c b hb); unwritten_arg hostOps3
theorem arg12 (b : Ref sig .tc) (hb : b ∈ args) : W12 m ρ c (Proc.devRef .tc b) = m ((c : Thread nD τ).loc b) := by
  refine Eq.trans ?_ (arg11 m ρ c b hb); each_arg hb <;> through_call W12_of_ne W12_arr dat3 A_eq3 V11
theorem arg13 (b : Ref sig .tc) (hb : b ∈ args) : W13 m ρ c (Proc.devRef .tc b) = m ((c : Thread nD τ).loc b) := by
  refine Eq.trans ?_ (arg12 m ρ c b hb); unwritten_arg hostOps4
theorem arg14 (b : Ref sig .tc) (hb : b ∈ args) : W14 m ρ c (Proc.devRef .tc b) = m ((c : Thread nD τ).loc b) := by
  refine Eq.trans ?_ (arg13 m ρ c b hb); each_arg hb <;> through_call W14_of_ne W14_arr dat4 A_eq4 V13
theorem arg15 (b : Ref sig .tc) (hb : b ∈ args) : W15 m ρ c (Proc.devRef .tc b) = m ((c : Thread nD τ).loc b) := by
  refine Eq.trans ?_ (arg14 m ρ c b hb); unwritten_arg hostOps5

/-! ## The stages, composed -/

/-- The embedded features: the first affine map of the input rows. -/
def emb : (⟨S100000x128, .f32⟩ : BufTy).Contents (Elt Ideal) := lin24 (m ((c : Thread nD τ).loc main_arg0)) (m ((c : Thread nD τ).loc main_arg6)) (row128 (m ((c : Thread nD τ).loc main_arg7)))
/-- The features after the first layer. -/
def hid1 : (⟨S100000x128, .f32⟩ : BufTy).Contents (Elt Ideal) :=
  layer (emb m c) (m ((c : Thread nD τ).loc main_arg1)) (m ((c : Thread nD τ).loc main_arg2)) (m ((c : Thread nD τ).loc main_arg3)) (m ((c : Thread nD τ).loc main_arg8)) (m ((c : Thread nD τ).loc main_arg9)) (m ((c : Thread nD τ).loc main_arg10))
/-- The features after the second layer. -/
def hid2 : (⟨S100000x128, .f32⟩ : BufTy).Contents (Elt Ideal) :=
  layer (hid1 m c) (m ((c : Thread nD τ).loc main_arg1)) (m ((c : Thread nD τ).loc main_arg2)) (m ((c : Thread nD τ).loc main_arg3)) (m ((c : Thread nD τ).loc main_arg11)) (m ((c : Thread nD τ).loc main_arg12)) (m ((c : Thread nD τ).loc main_arg13))

/-- The out-degree column as every later stage finds it. -/
theorem outdeg6 : W6 m ρ c (Proc.devRef .tc main_v9) = degree (m ((c : Thread nD τ).loc main_arg1)) :=
  (KKeep.outdeg_at6 m ρ c).trans (KHost.outdeg m ρ c)
theorem outdeg10 : W10 m ρ c (Proc.devRef .tc main_v9) = degree (m ((c : Thread nD τ).loc main_arg1)) :=
  (KKeep.outdeg_at10 m ρ c).trans (KHost.outdeg m ρ c)
/-- The in-degree column as every later stage finds it. -/
theorem indeg4 : W4 m ρ c (Proc.devRef .tc main_v19) = degree (m ((c : Thread nD τ).loc main_arg2)) :=
  (KHost.indeg m ρ c).trans (congrArg degree (arg2 m ρ c main_arg2 (by decide)))
theorem indeg8 : W8 m ρ c (Proc.devRef .tc main_v19) = degree (m ((c : Thread nD τ).loc main_arg2)) :=
  (KKeep.indeg_at8 m ρ c).trans (indeg4 m ρ c)
theorem indeg12 : W12 m ρ c (Proc.devRef .tc main_v19) = degree (m ((c : Thread nD τ).loc main_arg2)) :=
  (KKeep.indeg_at12 m ρ c).trans (indeg4 m ρ c)

/-- After the first dense stage. -/
theorem at6 : W6 m ρ c (Proc.devRef .tc main_v21) = emb m c := by
  refine (W6_arr m ρ c 3).trans ((Region0.final (V5 m ρ) c).trans ?_)
  show lin24 (W5 m ρ c (Proc.devRef .tc main_arg0)) (W5 m ρ c (Proc.devRef .tc main_arg6)) (W5 m ρ c (Proc.devRef .tc main_v20)) = _
  rw [arg5 m ρ c main_arg0 (by decide), arg5 m ρ c main_arg6 (by decide), KHost.bias0 m ρ c, arg4 m ρ c main_arg7 (by decide)]
  rfl

/-- The first layer's self transform. -/
theorem self8 : W8 m ρ c (Proc.devRef .tc main_v23_0) = selfT (emb m c) (m ((c : Thread nD τ).loc main_arg8)) := by
  refine (W8_arr m ρ c 3).trans ((Region1.final_self (V7 m ρ) c).trans ?_)
  show selfT (W7 m ρ c (Proc.devRef .tc main_v21)) (W7 m ρ c (Proc.devRef .tc main_arg8)) = _
  rw [KKeep.h0_at7 m ρ c, at6 m ρ c, arg7 m ρ c main_arg8 (by decide)]

/-- The first layer's scaled features. -/
theorem scaled8 : W8 m ρ c (Proc.devRef .tc main_v23_1) = scaled (emb m c) (column (degree (m ((c : Thread nD τ).loc main_arg1)))) := by
  refine (W8_arr m ρ c 4).trans ((Region1.final_scaled (V7 m ρ) c).trans ?_)
  show scaled (W7 m ρ c (Proc.devRef .tc main_v21)) (W7 m ρ c (Proc.devRef .tc main_v22)) = _
  rw [KKeep.h0_at7 m ρ c, at6 m ρ c, KHost.col1 m ρ c, outdeg6 m ρ c]

/-- After the first layer. -/
theorem at10 : W10 m ρ c (Proc.devRef .tc main_v38) = hid1 m c := by
  refine (W10_arr m ρ c 5).trans ((Region2.final (V9 m ρ) c).trans ?_)
  show Spec.post (W9 m ρ c (Proc.devRef .tc main_v35)) (W9 m ρ c (Proc.devRef .tc main_v23_0)) (W9 m ρ c (Proc.devRef .tc main_v36)) (W9 m ρ c (Proc.devRef .tc main_arg9)) (W9 m ρ c (Proc.devRef .tc main_v37)) = _
  rw [KHost.agg1 m ρ c, scaled8 m ρ c, arg8 m ρ c main_arg1 (by decide), arg8 m ρ c main_arg2 (by decide), arg8 m ρ c main_arg3 (by decide),
    KKeep.hs1_at9 m ρ c, self8 m ρ c, KHost.col2 m ρ c, indeg8 m ρ c, arg9 m ρ c main_arg9 (by decide), KHost.bias2 m ρ c,
    arg8 m ρ c main_arg10 (by decide)]
  rfl

/-- The second layer's self transform. -/
theorem self12 : W12 m ρ c (Proc.devRef .tc main_v40_0) = selfT (hid1 m c) (m ((c : Thread nD τ).loc main_arg11)) := by
  refine (W12_arr m ρ c 3).trans ((Region3.final_self (V11 m ρ) c).trans ?_)
  show selfT (W11 m ρ c (Proc.devRef .tc main_v38)) (W11 m ρ c (Proc.devRef .tc main_arg11)) = _
  rw [KKeep.h1_at11 m ρ c, at10 m ρ c, arg11 m ρ c main_arg11 (by decide)]

/-- The second layer's scaled features. -/
theorem scaled12 : W12 m ρ c (Proc.devRef .tc main_v40_1) = scaled (hid1 m c) (column (degree (m ((c : Thread nD τ).loc main_arg1)))) := by
  refine (W12_arr m ρ c 4).trans ((Region3.final_scaled (V11 m ρ) c).trans ?_)
  show scaled (W11 m ρ c (Proc.devRef .tc main_v38)) (W11 m ρ c (Proc.devRef .tc main_v39)) = _
  rw [KKeep.h1_at11 m ρ c, at10 m ρ c, KHost.col3 m ρ c, outdeg10 m ρ c]

/-- After the second layer. -/
theorem at14 : W14 m ρ c (Proc.devRef .tc main_v55) = hid2 m c := by
  refine (W14_arr m ρ c 5).trans ((Region4.final (V13 m ρ) c).trans ?_)
  show Spec.post (W13 m ρ c (Proc.devRef .tc main_v52)) (W13 m ρ c (Proc.devRef .tc main_v40_0)) (W13 m ρ c (Proc.devRef .tc main_v53)) (W13 m ρ c (Proc.devRef .tc main_arg12)) (W13 m ρ c (Proc.devRef .tc main_v54)) = _
  rw [KHost.agg2 m ρ c, scaled12 m ρ c, arg12 m ρ c main_arg1 (by decide), arg12 m ρ c main_arg2 (by decide), arg12 m ρ c main_arg3 (by decide),
    KKeep.hs2_at13 m ρ c, self12 m ρ c, KHost.col4 m ρ c, indeg12 m ρ c, arg13 m ρ c main_arg12 (by decide), KHost.bias4 m ρ c,
    arg12 m ρ c main_arg13 (by decide)]
  rfl

/-- THE RESULT: the array the last dense stage leaves is the network of the argument arrays. -/
theorem result : W16 m ρ c (Proc.devRef .tc main_v57)
    = network (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W16_arr m ρ c 3).trans ((Region5.final (V15 m ρ) c).trans ?_)
  show lin12 (W15 m ρ c (Proc.devRef .tc main_v55)) (W15 m ρ c (Proc.devRef .tc main_arg14)) (W15 m ρ c (Proc.devRef .tc main_v56)) = _
  rw [KKeep.h2_at15 m ρ c, at14 m ρ c, arg15 m ρ c main_arg14 (by decide), KHost.bias5 m ρ c, arg14 m ρ c main_arg15 (by decide)]
  rfl

end Cert.KernelIdeal.KFold

end
-- ==== Proof.RefSide.lean ====
/-
  The reference program's dense stages, read index by index on the extended reals, and joined to the specification's
  whole-array functions.
  * A matrix product at an index is the sum over the contracted coordinate.
  * A bias vector repeated down the table reads its column; a per-node column repeated across a row reads its row.
  * The one law about numbers: for d ≥ 1 on the extended reals, d^(-1/2) = 1 / √d  (both are 0 at d = ⊤).
-/
import proofs.«171632_j15960098472701_1_alg».proof.Proof.Gen.ReferenceIdeal.Read
import proofs.«171632_j15960098472701_1_alg».proof.Proof.Chain
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Idealize.ShloMosaic Idealize.ShloMosaic.ValueIdx Idealize.SL.Sem
open Cert.ReferenceIdeal Cert.ReferenceIdeal.Gen Cert.ReferenceIdeal.Read

/-! ## The two float constants -/

/-- The pattern of 1.0 denotes 1. -/
theorem ofBits_one : Ideal.ofBits .f32 0x3F800000#32 = 1 := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-! ## d^(-1/2) = 1/√d for d ≥ 1 -/

theorem rsqrt_eq_pow (d : EReal) (hd : 1 ≤ d) : Ideal.rsqrt d = Ideal.pow d ((-(1 / 2) : ℝ) : EReal) := by
  induction d using EReal.rec with
  | bot => exact absurd (le_bot_iff.mp hd) (by rw [← EReal.coe_one]; exact EReal.coe_ne_bot 1)
  | top =>
    have h1 : ¬ (0 : EReal) < ((-(1 / 2) : ℝ) : EReal) := by
      rw [← EReal.coe_zero, EReal.coe_lt_coe_iff]; norm_num
    have h2 : ¬ ((-(1 / 2) : ℝ) : EReal) = 0 := by
      rw [← EReal.coe_zero, EReal.coe_eq_coe_iff]; norm_num
    rw [Ideal.rsqrt_top, Ideal.pow_top, if_neg h1, if_neg h2]
  | coe r =>
    have hr : (1 : ℝ) ≤ r := by exact_mod_cast hd
    rw [Ideal.rsqrt_coe, Ideal.pow_coe_coe, if_neg (by linarith), if_neg (by linarith)]
    congr 1
    show (Real.sqrt r)⁻¹ = r ^ (-(1 / 2) : ℝ)
    rw [Real.sqrt_eq_rpow, Real.rpow_neg (by linarith)]

/-! ## Index bookkeeping: the generated index maps are the coordinate pairs of the specification -/

theorem lidx20_eq (i : S100000x128.Idx) (k : Fin 24) : lidx_main_v20 i k = ix2 (Cert.Spec.rw2 i) k :=
  funext fun a => match a with | ⟨0, _⟩ => rfl | ⟨1, _⟩ => rfl
theorem ridx20_eq (i : S100000x128.Idx) (k : Fin 24) : ridx_main_v20 i k = ix2 k (Cert.Spec.cl2 i) :=
  funext fun a => match a with | ⟨0, _⟩ => rfl | ⟨1, _⟩ => rfl
theorem lidx24_eq (i : S100000x128.Idx) (k : Fin 128) : lidx_main_v24 i k = ix2 (Cert.Spec.rw2 i) k :=
  funext fun a => match a with | ⟨0, _⟩ => rfl | ⟨1, _⟩ => rfl
theorem ridx24_eq (i : S100000x128.Idx) (k : Fin 128) : ridx_main_v24 i k = ix2 k (Cert.Spec.cl2 i) :=
  funext fun a => match a with | ⟨0, _⟩ => rfl | ⟨1, _⟩ => rfl
theorem lidx82_eq (i : S100000x12.Idx) (k : Fin 128) : lidx_main_v82 i k = ix2 (Cert.Spec.rw2 i) k :=
  funext fun a => match a with | ⟨0, _⟩ => rfl | ⟨1, _⟩ => rfl
theorem ridx82_eq (i : S100000x12.Idx) (k : Fin 128) : ridx_main_v82 i k = ix2 k (Cert.Spec.cl2 i) :=
  funext fun a => match a with | ⟨0, _⟩ => rfl | ⟨1, _⟩ => rfl

/-! ## A matrix product at an index is the sum over the contracted coordinate -/

/-- 128 features by a 128 × 128 matrix. -/
theorem dot128_apply (h : (⟨S100000x128, .f32⟩ : BufTy).Contents (Elt Ideal)) (w : (⟨S128x128, .f32⟩ : BufTy).Contents (Elt Ideal))
    (i : S100000x128.Idx) :
    Host.dotGeneral (F := Ideal) (φ₁ := .f32) (φ₂ := .f32) dot_S100000x128_S128x128_S100000x128_1_0_0_1_n_n none h w i
      = ∑ k : Fin 128, h (ix2 (Cert.Spec.rw2 i) k) * w (ix2 k (Cert.Spec.cl2 i)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = lidx_main_v24 i k := funext fun a => Fin.ext (by
    match a with
    | ⟨0, _⟩ => exact lhs_main_v24_0 _ _
    | ⟨1, _⟩ => exact (lhs_main_v24_1 _ _).trans hk)
  have er : dot_S100000x128_S128x128_S100000x128_1_0_0_1_n_n.rhsIdx i ((ValueIdx.contrEquiv1 dot_S100000x128_S128x128_S100000x128_1_0_0_1_n_n 128 rfl rfl).symm k) = ridx_main_v24 i k := funext fun a => Fin.ext (by
    match a with
    | ⟨0, _⟩ => exact (rhs_main_v24_0 _ _).trans hk
    | ⟨1, _⟩ => exact rhs_main_v24_1 _ _)
  rw [el, er, lidx24_eq, ridx24_eq]

/-- 128 features by the 128 × 12 output matrix. -/
theorem dot12_apply (h : (⟨S100000x128, .f32⟩ : BufTy).Contents (Elt Ideal)) (w : (⟨S128x12, .f32⟩ : BufTy).Contents (Elt Ideal))
    (i : S100000x12.Idx) :
    Host.dotGeneral (F := Ideal) (φ₁ := .f32) (φ₂ := .f32) dot_S100000x128_S128x12_S100000x12_1_0_0_1_n_n none h w i
      = ∑ k : Fin 128, h (ix2 (Cert.Spec.rw2 i) k) * w (ix2 k (Cert.Spec.cl2 i)) := by
  simp only [Host.dotGeneral]
  rw [Ideal.dotGeneral_apply, ← Equiv.sum_comp (ValueIdx.contrEquiv1 dot_S100000x128_S128x12_S100000x12_1_0_0_1_n_n 128 rfl rfl).symm]
  refine Finset.sum_congr rfl fun k _ => ?_
  have hk := ValueIdx.contrEquiv1_symm_val dot_S100000x128_S128x12_S100000x12_1_0_0_1_n_n 128 rfl rfl k
  have el : dot_S100000x128_S128x12_S100000x12_1_0_0_1_n_n.lhsIdx i ((ValueIdx.contrEquiv1 dot_S100000x128_S128x12_S100000x12_1_0_0_1_n_n 128 rfl rfl).symm k) = lidx_main_v82 i k := funext fun a => Fin.ext (by
    match a with
    | ⟨0, _⟩ => exact lhs_main_v82_0 _ _
    | ⟨1, _⟩ => exact (lhs_main_v82_1 _ _).trans hk)
  have er : dot_S100000x128_S128x12_S100000x12_1_0_0_1_n_n.rhsIdx i ((ValueIdx.contrEquiv1 dot_S100000x128_S128x12_S100000x12_1_0_0_1_n_n 128 rfl rfl).symm k) = ridx_main_v82 i k := funext fun a => Fin.ext (by
    match a with
    | ⟨0, _⟩ => exact (rhs_main_v82_0 _ _).trans hk
    | ⟨1, _⟩ => exact rhs_main_v82_1 _ _)
  rw [el, er, lidx82_eq, ridx82_eq]

/-- 24 input features by the 24 × 128 matrix. -/
theorem dot24_apply (x : (⟨S100000x24, .f32⟩ : BufTy).Contents (Elt Ideal)) (w : (⟨S24x128, .f32⟩ : BufTy).Contents (Elt Ideal))
    (i : S100000x128.Idx) :
    Host.dotGeneral (F := Ideal) (φ₁ := .f32) (φ₂ := .f32) dot_S100000x24_S24x128_S100000x128_1_0_0_1_n_n none x w i
      = ∑ k : Fin 24, x (ix2 (Cert.Spec.rw2 i) k) * w (ix2 k (Cert.Spec.cl2 i)) := by
  refine (val_main_v20_apply x w i).trans (Finset.sum_congr rfl fun k _ => ?_)
  rw [lidx20_eq, ridx20_eq]

/-! ## Repeated rows and columns at an index -/

/-- The bias row of the specification reads the bias vector at its column. -/
theorem row128_apply (b : (⟨S128, .f32⟩ : BufTy).Contents (Elt Ideal)) (q : Fin 128) :
    Cert.Spec.row128 b (ix2 (0 : Fin 1) q) = b (ix1 q) := by
  unfold Cert.Spec.row128
  exact shapeCast_a_1a_apply b _ (0 : Fin 1) q

theorem row12_apply (b : (⟨S12, .f32⟩ : BufTy).Contents (Elt Ideal)) (q : Fin 12) :
    Cert.Spec.row12 b (ix2 (0 : Fin 1) q) = b (ix1 q) := by
  unfold Cert.Spec.row12
  exact shapeCast_a_1a_apply b _ (0 : Fin 1) q

/-- The one-column table of the specification reads the vector at its row. -/
theorem column_apply (d : (⟨S100000, .f32⟩ : BufTy).Contents (Elt Ideal)) (r : Fin 100000) :
    Cert.Spec.column d (ix2 r (0 : Fin 1)) = d (ix1 r) := by
  unfold Cert.Spec.column
  exact shapeCast_apply d _ _ _ (by
    rw [Shape.rowMajor_val_two, Shape.rowMajor_val_one]
    show r.val = r.val * 1 + 0
    omega)

/-- A 128-vector repeated down the node table reads its column. -/
theorem biasRows128_apply (b : (⟨S128, .f32⟩ : BufTy).Contents (Elt Ideal)) (i : S100000x128.Idx) :
    broadcastInDim S100000x128 ![0, 1] bcast_S1x128_S100000x128_0_1 (broadcastInDim S1x128 ![1] bcast_S128_S1x128_1 b) i
      = Cert.Spec.row128 b (ix2 (0 : Fin 1) (Cert.Spec.cl2 i)) := by
  refine ((val_main_v22_apply b i).trans (val_main_v21_apply b _)).trans ?_
  rw [row128_apply]
  exact congrArg b (funext fun a => match a with | ⟨0, _⟩ => rfl)

/-- A 12-vector repeated down the node table reads its column. -/
theorem biasRows12_apply (b : (⟨S12, .f32⟩ : BufTy).Contents (Elt Ideal)) (i : S100000x12.Idx) :
    broadcastInDim S100000x12 ![0, 1] bcast_S1x12_S100000x12_0_1 (broadcastInDim S1x12 ![1] bcast_S12_S1x12_1 b) i
      = Cert.Spec.row12 b (ix2 (0 : Fin 1) (Cert.Spec.cl2 i)) := by
  refine ((val_main_v84_apply b i).trans (val_main_v83_apply b _)).trans ?_
  rw [row12_apply]
  exact congrArg b (funext fun a => match a with | ⟨0, _⟩ => rfl)

/-- A per-node vector repeated across the 128 features reads its row. -/
theorem nodeCols_apply (v : (⟨S100000, .f32⟩ : BufTy).Contents (Elt Ideal)) (i : S100000x128.Idx) :
    broadcastInDim S100000x128 ![0, 1] bcast_S100000x1_S100000x128_0_1 (broadcastInDim S100000x1 ![0] bcast_S100000_S100000x1_0 v) i
      = v (ix1 (Cert.Spec.rw2 i)) := by
  refine (broadcastInDim_apply _ bcast_S100000x1_S100000x128_0_1 _ i (idx_main_v28 i) (fun a => match a with
    | ⟨0, _⟩ => by show (i 0).val = if (100000 : Nat) = 1 then 0 else (i 0).val; rw [if_neg (by decide)]
    | ⟨1, _⟩ => by show 0 = if (1 : Nat) = 1 then 0 else (i 1).val; rw [if_pos rfl])).trans ?_
  refine (broadcastInDim_apply _ bcast_S100000_S100000x1_0 v (idx_main_v28 i) (idx_main_v27 (idx_main_v28 i)) (fun a => match a with
    | ⟨0, _⟩ => by show (i 0).val = if (100000 : Nat) = 1 then 0 else (i 0).val; rw [if_neg (by decide)])).trans ?_
  exact congrArg v (funext fun a => match a with | ⟨0, _⟩ => rfl)

/-- The zero table reads 0 everywhere. -/
theorem zeros_apply (i : S100000x128.Idx) :
    broadcastInDim S100000x128 ![] bcast_S_S100000x128 (constant (F := Ideal) S_ .f32 0x00000000#32) i
      = Ideal.ofBits .f32 0x00000000#32 :=
  broadcastInDim_apply _ bcast_S_S100000x128 _ i ix0 (fun a => a.elim0)

/-! ## The degree is at least one, and its power -1/2 is the reciprocal square root -/

theorem degree_ge_one (s : (⟨S1600000, .i32⟩ : BufTy).Contents (Elt Ideal)) (j : S100000.Idx) : 1 ≤ Cert.Spec.degree s j := by
  unfold Cert.Spec.degree
  rw [maximumf_apply]
  refine le_trans (le_of_eq ?_) (le_max_left _ _)
  exact ((broadcastInDim_apply _ _ _ j ix0 (fun a => a.elim0)).trans ofBits_one).symm

/-- The host's power, index by index. -/
theorem hostPowf_apply {sh : Shape} (a b : FVec Ideal sh .f32) (j : sh.Idx) : Host.powf a b j = Ideal.pow (a j) (b j) := rfl

theorem powNegHalf_apply (s : (⟨S1600000, .i32⟩ : BufTy).Contents (Elt Ideal)) (j : S100000.Idx) :
    Host.powf (F := Ideal) (Cert.Spec.degree s) (broadcastInDim S100000 ![] bcast_S_S100000 (constant (F := Ideal) S_ .f32 0xBF000000#32)) j
      = Ideal.rsqrt (Cert.Spec.degree s j) := by
  rw [rsqrt_eq_pow _ (degree_ge_one s j)]
  refine (hostPowf_apply _ _ j).trans ?_
  refine congrArg (Ideal.pow (Cert.Spec.degree s j)) ?_
  exact (broadcastInDim_apply _ bcast_S_S100000 _ j ix0 (fun a => a.elim0)).trans ofBits_neg_half

/-! ## The dense stages of the reference are the specification's functions -/

/-- The 24 → 128 affine map. -/
theorem lin24_eq (x : (⟨S100000x24, .f32⟩ : BufTy).Contents (Elt Ideal)) (w : (⟨S24x128, .f32⟩ : BufTy).Contents (Elt Ideal))
    (b : (⟨S128, .f32⟩ : BufTy).Contents (Elt Ideal)) :
    addf (Host.dotGeneral (F := Ideal) (φ₁ := .f32) (φ₂ := .f32) dot_S100000x24_S24x128_S100000x128_1_0_0_1_n_n none x w)
        (broadcastInDim S100000x128 ![0, 1] bcast_S1x128_S100000x128_0_1 (broadcastInDim S1x128 ![1] bcast_S128_S1x128_1 b))
      = Cert.Spec.lin24 x w (Cert.Spec.row128 b) := by
  funext i
  rw [addf_apply, dot24_apply, biasRows128_apply]
  rfl

/-- The 128 → 12 affine map. -/
theorem lin12_eq (x : (⟨S100000x128, .f32⟩ : BufTy).Contents (Elt Ideal)) (w : (⟨S128x12, .f32⟩ : BufTy).Contents (Elt Ideal))
    (b : (⟨S12, .f32⟩ : BufTy).Contents (Elt Ideal)) :
    addf (Host.dotGeneral (F := Ideal) (φ₁ := .f32) (φ₂ := .f32) dot_S100000x128_S128x12_S100000x12_1_0_0_1_n_n none x w)
        (broadcastInDim S100000x12 ![0, 1] bcast_S1x12_S100000x12_0_1 (broadcastInDim S1x12 ![1] bcast_S12_S1x12_1 b))
      = Cert.Spec.lin12 x w (Cert.Spec.row12 b) := by
  funext i
  rw [addf_apply, dot12_apply, biasRows12_apply]
  rfl

/-- The self transform. -/
theorem selfT_eq (h : (⟨S100000x128, .f32⟩ : BufTy).Contents (Elt Ideal)) (w : (⟨S128x128, .f32⟩ : BufTy).Contents (Elt Ideal)) :
    Host.dotGeneral (F := Ideal) (φ₁ := .f32) (φ₂ := .f32) dot_S100000x128_S128x128_S100000x128_1_0_0_1_n_n none h w = Cert.Spec.selfT h w := by
  funext i
  rw [dot128_apply]
  rfl

/-- Every row times its node's degree to the power -1/2. -/
theorem scaled_eq (h : (⟨S100000x128, .f32⟩ : BufTy).Contents (Elt Ideal)) (s : (⟨S1600000, .i32⟩ : BufTy).Contents (Elt Ideal)) :
    mulf h (broadcastInDim S100000x128 ![0, 1] bcast_S100000x1_S100000x128_0_1 (broadcastInDim S100000x1 ![0] bcast_S100000_S100000x1_0
        (Host.powf (F := Ideal) (Cert.Spec.degree s) (broadcastInDim S100000 ![] bcast_S_S100000 (constant (F := Ideal) S_ .f32 0xBF000000#32)))))
      = Cert.Spec.scaled h (Cert.Spec.column (Cert.Spec.degree s)) := by
  funext i
  rw [mulf_apply, nodeCols_apply, powNegHalf_apply]
  unfold Cert.Spec.scaled
  rw [column_apply]

/-- The layer's last stage: aggregate transformed, biased, scaled, added to the self term, clamped at 0. -/
theorem post_eq (agg hs : (⟨S100000x128, .f32⟩ : BufTy).Contents (Elt Ideal)) (s : (⟨S1600000, .i32⟩ : BufTy).Contents (Elt Ideal))
    (w : (⟨S128x128, .f32⟩ : BufTy).Contents (Elt Ideal)) (b : (⟨S128, .f32⟩ : BufTy).Contents (Elt Ideal)) :
    maximumf (addf hs (mulf (addf (Cert.Spec.selfT agg w)
          (broadcastInDim S100000x128 ![0, 1] bcast_S1x128_S100000x128_0_1 (broadcastInDim S1x128 ![1] bcast_S128_S1x128_1 b)))
        (broadcastInDim S100000x128 ![0, 1] bcast_S100000x1_S100000x128_0_1 (broadcastInDim S100000x1 ![0] bcast_S100000_S100000x1_0
          (Host.powf (F := Ideal) (Cert.Spec.degree s) (broadcastInDim S100000 ![] bcast_S_S100000 (constant (F := Ideal) S_ .f32 0xBF000000#32)))))))
        (broadcastInDim S100000x128 ![] bcast_S_S100000x128 (constant (F := Ideal) S_ .f32 0x00000000#32))
      = Cert.Spec.post agg hs (Cert.Spec.column (Cert.Spec.degree s)) w (Cert.Spec.row128 b) := by
  funext i
  rw [maximumf_apply, addf_apply, mulf_apply, addf_apply, nodeCols_apply, powNegHalf_apply, biasRows128_apply, zeros_apply]
  unfold Cert.Spec.post
  rw [column_apply]
  rfl

/-! ## The reference program, value by value

  Each value of the reference program is a function of the program's arguments; the values that close a stage are the
  specification's functions of the values that open it.  The irregular operations (the scatter-adds and the gather)
  are the same operations on both sides. -/

section Values
variable (x0 : (⟨S100000x24, .f32⟩ : BufTy).Contents (Elt Ideal)) (x1 x2 : (⟨S1600000, .i32⟩ : BufTy).Contents (Elt Ideal))
  (x3 : (⟨S1600000x1, .f32⟩ : BufTy).Contents (Elt Ideal)) (x6 : (⟨S24x128, .f32⟩ : BufTy).Contents (Elt Ideal))
  (x7 : (⟨S128, .f32⟩ : BufTy).Contents (Elt Ideal)) (x8 x9 : (⟨S128x128, .f32⟩ : BufTy).Contents (Elt Ideal))
  (x10 : (⟨S128, .f32⟩ : BufTy).Contents (Elt Ideal)) (x11 x12 : (⟨S128x128, .f32⟩ : BufTy).Contents (Elt Ideal))
  (x13 : (⟨S128, .f32⟩ : BufTy).Contents (Elt Ideal)) (x14 : (⟨S128x12, .f32⟩ : BufTy).Contents (Elt Ideal))
  (x15 : (⟨S12, .f32⟩ : BufTy).Contents (Elt Ideal))

/-- The degree by source end points. -/
theorem v9_eq : val_main_v9 (F := Ideal) x1 = Cert.Spec.degree x1 := rfl

/-- The degree by destination end points. -/
theorem v19_eq : val_main_v19 (F := Ideal) x2 = Cert.Spec.degree x2 := rfl

/-- The embedded features. -/
theorem v23_eq : val_main_v23 (F := Ideal) x0 x6 x7 = Cert.Spec.lin24 x0 x6 (Cert.Spec.row128 x7) :=
  lin24_eq x0 x6 x7

/-- One layer of the reference, from the features h that enter it: its four values
    (scaled rows, aggregate, self term, clamped sum) in the order the program computes them. -/
theorem layer_eq (h : (⟨S100000x128, .f32⟩ : BufTy).Contents (Elt Ideal)) (src dst : (⟨S1600000, .i32⟩ : BufTy).Contents (Elt Ideal))
    (ew : (⟨S1600000x1, .f32⟩ : BufTy).Contents (Elt Ideal)) (wSelf w : (⟨S128x128, .f32⟩ : BufTy).Contents (Elt Ideal))
    (b : (⟨S128, .f32⟩ : BufTy).Contents (Elt Ideal)) :
    maximumf (addf (Host.dotGeneral (F := Ideal) (φ₁ := .f32) (φ₂ := .f32) dot_S100000x128_S128x128_S100000x128_1_0_0_1_n_n none h wSelf)
        (mulf (addf (Host.dotGeneral (F := Ideal) (φ₁ := .f32) (φ₂ := .f32) dot_S100000x128_S128x128_S100000x128_1_0_0_1_n_n none
              (Cert.Spec.aggregate (mulf h (broadcastInDim S100000x128 ![0, 1] bcast_S100000x1_S100000x128_0_1 (broadcastInDim S100000x1 ![0] bcast_S100000_S100000x1_0
                (Host.powf (F := Ideal) (Cert.Spec.degree src) (broadcastInDim S100000 ![] bcast_S_S100000 (constant (F := Ideal) S_ .f32 0xBF000000#32)))))) src dst ew) w)
            (broadcastInDim S100000x128 ![0, 1] bcast_S1x128_S100000x128_0_1 (broadcastInDim S1x128 ![1] bcast_S128_S1x128_1 b)))
          (broadcastInDim S100000x128 ![0, 1] bcast_S100000x1_S100000x128_0_1 (broadcastInDim S100000x1 ![0] bcast_S100000_S100000x1_0
            (Host.powf (F := Ideal) (Cert.Spec.degree dst) (broadcastInDim S100000 ![] bcast_S_S100000 (constant (F := Ideal) S_ .f32 0xBF000000#32)))))))
        (broadcastInDim S100000x128 ![] bcast_S_S100000x128 (constant (F := Ideal) S_ .f32 0x00000000#32))
      = Cert.Spec.layer h src dst ew wSelf w b := by
  rw [scaled_eq h src, selfT_eq, selfT_eq, post_eq]
  rfl

/-- The first layer's output. -/
theorem v52_eq : val_main_v52 (F := Ideal) x0 x1 x2 x3 x6 x7 x8 x9 x10
      = Cert.Spec.layer (Cert.Spec.lin24 x0 x6 (Cert.Spec.row128 x7)) x1 x2 x3 x8 x9 x10 :=
  (layer_eq (val_main_v23 (F := Ideal) x0 x6 x7) x1 x2 x3 x8 x9 x10).trans
    (congrArg (fun h => Cert.Spec.layer h x1 x2 x3 x8 x9 x10) (v23_eq x0 x6 x7))

/-- The second layer's output. -/
theorem v81_eq : val_main_v81 (F := Ideal) x0 x1 x2 x3 x6 x7 x8 x9 x10 x11 x12 x13
      = Cert.Spec.layer (Cert.Spec.layer (Cert.Spec.lin24 x0 x6 (Cert.Spec.row128 x7)) x1 x2 x3 x8 x9 x10) x1 x2 x3 x11 x12 x13 :=
  (layer_eq (val_main_v52 (F := Ideal) x0 x1 x2 x3 x6 x7 x8 x9 x10) x1 x2 x3 x11 x12 x13).trans
    (congrArg (fun h => Cert.Spec.layer h x1 x2 x3 x11 x12 x13) (v52_eq x0 x1 x2 x3 x6 x7 x8 x9 x10))

/-- The program's result. -/
theorem v85_eq : val_main_v85 (F := Ideal) x0 x1 x2 x3 x6 x7 x8 x9 x10 x11 x12 x13 x14 x15
      = Cert.Spec.network x0 x1 x2 x3 x6 x7 x8 x9 x10 x11 x12 x13 x14 x15 :=
  (lin12_eq (val_main_v81 (F := Ideal) x0 x1 x2 x3 x6 x7 x8 x9 x10 x11 x12 x13) x14 x15).trans
    (congrArg (fun h => Cert.Spec.lin12 h x14 (Cert.Spec.row12 x15)) (v81_eq x0 x1 x2 x3 x6 x7 x8 x9 x10 x11 x12 x13))

end Values

/-- The reference program computes the network of its arguments. -/
theorem ref_eq (m : (ℓ : Loc nD τ sig) → Buf (Elt Ideal) ℓ) (c : Dev nD) :
    Cert.ReferenceIdeal.Value.res_main_v85 (F := Ideal) m c
      = Cert.Spec.network (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg6))
          (m ((c.tc : Thread nD τ).loc main_arg7)) (m ((c.tc : Thread nD τ).loc main_arg8)) (m ((c.tc : Thread nD τ).loc main_arg9))
          (m ((c.tc : Thread nD τ).loc main_arg10)) (m ((c.tc : Thread nD τ).loc main_arg11)) (m ((c.tc : Thread nD τ).loc main_arg12))
          (m ((c.tc : Thread nD τ).loc main_arg13)) (m ((c.tc : Thread nD τ).loc main_arg14)) (m ((c.tc : Thread nD τ).loc main_arg15)) :=
  (val_main_v85_eq (F := Ideal) m c).trans (v85_eq _ _ _ _ _ _ _ _ _ _ _ _ _ _)

end Cert.RefSide

end
-- ==== Proof.lean ====
/-
  Two programs compute a two-layer graph convolution over 100000 nodes and 1600000 weighted edges:
    h₀ = inputs · W_emb + b_emb;   layer: h ↦ max (h · W_self + (agg(h · d_out^(-1/2)) · W + b) · d_in^(-1/2)) 0;   out = h₂ · W_fc + b_fc,
  where d_out, d_in count the edges leaving and entering a node (at least one) and agg sums, at each node, the
  edge-weighted scaled feature rows of the sources of the edges into it.  One program runs the six dense stages as
  pipelined calls over 50 blocks of 2000 rows, with the products taken in a narrower float format and the scaling by
  the reciprocal square root; the other is plain array code with `d ** -0.5`.  On the extended reals a change of float
  format is the identity, a blocked product is the product, and for d ≥ 1 the reciprocal square root IS the power
  -1/2; the irregular gather / scatter-add part is the same host operations in both.  So both end at ONE function of
  the argument arrays, `Spec.network`:
    the pipelined program by reading its run back (Proof/KRun.lean, Proof/KFold.lean over the six stage lemmas
    Proof/Region0 … Region5 and the host stretches Proof/KHost.lean, Proof/KKeep.lean),
    the array program by reading its term stage by stage (Proof/RefSide.lean).
  The three frames are the generated ones; the idealization rewrote nothing, so `preserves` is trivial.
-/
import proofs.«171632_j15960098472701_1_alg».proof.Defs
import proofs.«171632_j15960098472701_1_alg».proof.Proof.Gen.Kernel
import proofs.«171632_j15960098472701_1_alg».proof.Proof.Gen.Kernel.Skeleton
import proofs.«171632_j15960098472701_1_alg».proof.Proof.Gen.Kernel.Launch
import proofs.«171632_j15960098472701_1_alg».proof.Proof.Gen.Kernel.Points
import proofs.«171632_j15960098472701_1_alg».proof.Proof.Gen.Kernel.Frame
import proofs.«171632_j15960098472701_1_alg».proof.Proof.Gen.KernelIdeal
import proofs.«171632_j15960098472701_1_alg».proof.Proof.Gen.KernelIdeal.Skeleton
import proofs.«171632_j15960098472701_1_alg».proof.Proof.Gen.KernelIdeal.Launch
import proofs.«171632_j15960098472701_1_alg».proof.Proof.Gen.KernelIdeal.Points
import proofs.«171632_j15960098472701_1_alg».proof.Proof.Gen.KernelIdeal.Frame
import proofs.«171632_j15960098472701_1_alg».proof.Proof.Gen.ReferenceIdeal
import proofs.«171632_j15960098472701_1_alg».proof.Proof.Gen.Pre_finite_inputs
import proofs.«171632_j15960098472701_1_alg».proof.Proof.Gen.ReferenceIdeal.Run
import proofs.«171632_j15960098472701_1_alg».proof.Proof.Gen.ReferenceIdeal.Read
import proofs.«171632_j15960098472701_1_alg».proof.Proof.KRun
import proofs.«171632_j15960098472701_1_alg».proof.Proof.KFold
import proofs.«171632_j15960098472701_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the network function of the argument arrays, which agree. -/
theorem algebraic : Cert.algebraic_KernelIdeal_ReferenceIdeal := by
  intro m ρ m' ρ' _ hagree
  refine ⟨fun c => Cert.Spec.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun _ h c => ⟨(h c).1.trans (Cert.KernelIdeal.KFold.result m ρ c), (h c).2⟩)
      (Cert.KernelIdeal.KRun.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.RefSide.ref_eq m' c, e0, e1, e2, e3, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
